-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000x3 : Shape := ⟨3, ![16, 100000, 3]⟩
abbrev S16x4096 : Shape := ⟨2, ![16, 4096]⟩
abbrev S_ : Shape := ⟨0, ![]⟩

class Facts : Prop where
  bcast_S_S16x100000x3 : S_.BroadcastsInDim S16x100000x3 (![] : Fin 0 → Fin S16x100000x3.rank)
  reducesTo_S16x100000x3_S_d0_1_2 : S16x100000x3.ReducesTo [0, 1, 2] S_
  h_S_ : 0 < S_.numel

variable [Facts]

def fn {F : FTy → Type} [FloatOps F] (main_arg0 : FVec F S16x100000x3 .f32) (main_arg1 : FVec F S16x100000x3 .f32) (main_arg2 : IVec S16x4096 32) (main_arg3 : IVec S16x4096 32) : IVec S_ 1 :=
  let main_v0 : FVec F S16x100000x3 .f32 := Host.absf main_arg0
  let main_cst : FVec F S_ .f32 := constant S_ .f32 0x7F800000#32
  let main_v1 : FVec F S16x100000x3 .f32 := broadcastInDim S16x100000x3 ![] bcast_S_S16x100000x3 main_cst
  let main_v2 : IVec S16x100000x3 1 := cmpf .olt main_v0 main_v1
  let main_c : IVec S_ 1 := constantI S_ 1 1#1
  let main_v3 : IVec S_ 1 := (fun x v => Host.reduce IntOp.andi x v reducesTo_S16x100000x3_S_d0_1_2 h_S_) main_v2 main_c
  let main_v4 : FVec F S16x100000x3 .f32 := Host.absf main_arg1
  let main_cst_0 : FVec F S_ .f32 := constant S_ .f32 0x7F800000#32
  let main_v5 : FVec F S16x100000x3 .f32 := broadcastInDim S16x100000x3 ![] bcast_S_S16x100000x3 main_cst_0
  let main_v6 : IVec S16x100000x3 1 := cmpf .olt main_v4 main_v5
  let main_c_1 : IVec S_ 1 := constantI S_ 1 1#1
  let main_v7 : IVec S_ 1 := (fun x v => Host.reduce IntOp.andi x v reducesTo_S16x100000x3_S_d0_1_2 h_S_) main_v6 main_c_1
  let main_v8 : IVec S_ 1 := andi main_v3 main_v7
  main_v8
-- ==== Kernel.lean ====
abbrev S16x100000x3 : Shape := ⟨3, ![16, 100000, 3]⟩
abbrev S16x4096 : Shape := ⟨2, ![16, 4096]⟩
abbrev S16x4096x1 : Shape := ⟨3, ![16, 4096, 1]⟩
abbrev S_ : Shape := ⟨0, ![]⟩
abbrev S1 : Shape := ⟨1, ![1]⟩
abbrev S1x1x1 : Shape := ⟨3, ![1, 1, 1]⟩
abbrev S16x4096x3 : Shape := ⟨3, ![16, 4096, 3]⟩
abbrev S16x3x4096 : Shape := ⟨3, ![16, 3, 4096]⟩
abbrev S16x1x1 : Shape := ⟨3, ![16, 1, 1]⟩
abbrev S1x3x4096 : Shape := ⟨3, ![1, 3, 4096]⟩
abbrev S1x4096 : Shape := ⟨2, ![1, 4096]⟩
abbrev S3x4096 : Shape := ⟨2, ![3, 4096]⟩
abbrev S4096 : Shape := ⟨1, ![4096]⟩
abbrev S1x1 : Shape := ⟨2, ![1, 1]⟩
abbrev S1x1024 : Shape := ⟨2, ![1, 1024]⟩
abbrev S1024x1 : Shape := ⟨2, ![1024, 1]⟩
abbrev S3x1024 : Shape := ⟨2, ![3, 1024]⟩
abbrev S1024x1024 : Shape := ⟨2, ![1024, 1024]⟩
abbrev S1024 : Shape := ⟨1, ![1024]⟩
abbrev S16 : Shape := ⟨1, ![16]⟩

abbrev nBuf : Space → Nat
  | .hbm => 60
  | .vmem => 7
  | .smem => 0
  | _ => 0

abbrev bufTy : (tb : Table) → Fin (tcTables nBuf tb) → BufTy
  | .hbm, ⟨0, _⟩ => ⟨S16x100000x3, .f32⟩
  | .hbm, ⟨1, _⟩ => ⟨S16x100000x3, .f32⟩
  | .hbm, ⟨2, _⟩ => ⟨S16x4096, .i32⟩
  | .hbm, ⟨3, _⟩ => ⟨S16x4096, .i32⟩
  | .hbm, ⟨4, _⟩ => ⟨S16x4096x1, .i32⟩
  | .hbm, ⟨5, _⟩ => ⟨S_, .i32⟩
  | .hbm, ⟨6, _⟩ => ⟨S16x4096x1, .i32⟩
  | .hbm, ⟨7, _⟩ => ⟨S16x4096x1, .i1⟩
  | .hbm, ⟨8, _⟩ => ⟨S_, .i32⟩
  | .hbm, ⟨9, _⟩ => ⟨S16x4096x1, .i32⟩
  | .hbm, ⟨10, _⟩ => ⟨S16x4096x1, .i32⟩
  | .hbm, ⟨11, _⟩ => ⟨S16x4096x1, .i32⟩
  | .hbm, ⟨12, _⟩ => ⟨S1, .i32⟩
  | .hbm, ⟨13, _⟩ => ⟨S_, .i32⟩
  | .hbm, ⟨14, _⟩ => ⟨S16x4096x1, .i32⟩
  | .hbm, ⟨15, _⟩ => ⟨S16x4096x1, .i1⟩
  | .hbm, ⟨16, _⟩ => ⟨S1x1x1, .i32⟩
  | .hbm, ⟨17, _⟩ => ⟨S16x4096x1, .i32⟩
  | .hbm, ⟨18, _⟩ => ⟨S16x4096x1, .i1⟩
  | .hbm, ⟨19, _⟩ => ⟨S16x4096x1, .i1⟩
  | .hbm, ⟨20, _⟩ => ⟨S_, .i1⟩
  | .hbm, ⟨21, _⟩ => ⟨S16x4096, .i1⟩
  | .hbm, ⟨22, _⟩ => ⟨S16x4096x3, .f32⟩
  | .hbm, ⟨23, _⟩ => ⟨S16x4096x3, .i1⟩
  | .hbm, ⟨24, _⟩ => ⟨S_, .f32⟩
  | .hbm, ⟨25, _⟩ => ⟨S16x4096x3, .f32⟩
  | .hbm, ⟨26, _⟩ => ⟨S16x4096x3, .f32⟩
  | .hbm, ⟨27, _⟩ => ⟨S16x4096x1, .i32⟩
  | .hbm, ⟨28, _⟩ => ⟨S_, .i32⟩
  | .hbm, ⟨29, _⟩ => ⟨S16x4096x1, .i32⟩
  | .hbm, ⟨30, _⟩ => ⟨S16x4096x1, .i1⟩
  | .hbm, ⟨31, _⟩ => ⟨S_, .i32⟩
  | .hbm, ⟨32, _⟩ => ⟨S16x4096x1, .i32⟩
  | .hbm, ⟨33, _⟩ => ⟨S16x4096x1, .i32⟩
  | .hbm, ⟨34, _⟩ => ⟨S16x4096x1, .i32⟩
  | .hbm, ⟨35, _⟩ => ⟨S1, .i32⟩
  | .hbm, ⟨36, _⟩ => ⟨S_, .i32⟩
  | .hbm, ⟨37, _⟩ => ⟨S16x4096x1, .i32⟩
  | .hbm, ⟨38, _⟩ => ⟨S16x4096x1, .i1⟩
  | .hbm, ⟨39, _⟩ => ⟨S1x1x1, .i32⟩
  | .hbm, ⟨40, _⟩ => ⟨S16x4096x1, .i32⟩
  | .hbm, ⟨41, _⟩ => ⟨S16x4096x1, .i1⟩
  | .hbm, ⟨42, _⟩ => ⟨S16x4096x1, .i1⟩
  | .hbm, ⟨43, _⟩ => ⟨S_, .i1⟩
  | .hbm, ⟨44, _⟩ => ⟨S16x4096, .i1⟩
  | .hbm, ⟨45, _⟩ => ⟨S16x4096x3, .f32⟩
  | .hbm, ⟨46, _⟩ => ⟨S16x4096x3, .i1⟩
  | .hbm, ⟨47, _⟩ => ⟨S_, .f32⟩
  | .hbm, ⟨48, _⟩ => ⟨S16x4096x3, .f32⟩
  | .hbm, ⟨49, _⟩ => ⟨S16x4096x3, .f32⟩
  | .hbm, ⟨50, _⟩ => ⟨S16x3x4096, .f32⟩
  | .hbm, ⟨51, _⟩ => ⟨S16x3x4096, .f32⟩
  | .hbm, ⟨52, _⟩ => ⟨S16x1x1, .f32⟩
  | .hbm, ⟨53, _⟩ => ⟨S16, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S1x3x4096, .f32⟩
  | .local _ .vmem, ⟨1, _⟩ => ⟨S1x3x4096, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1, .f32⟩
  | .local _ .vmem, ⟨5, _⟩ => ⟨S1x1x1, .f32⟩
  | .local _ .vmem, ⟨6, _⟩ => ⟨S1x4096, .f32⟩
  | _, _ => ⟨S16x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_v8 : Ref sig .tc := ⟨.hbm, 55, rfl⟩
abbrev main_cst_0 : Ref sig .tc := ⟨.hbm, 56, rfl⟩
abbrev main_v9 : Ref sig .tc := ⟨.hbm, 57, rfl⟩
abbrev main_cst_1 : Ref sig .tc := ⟨.hbm, 58, rfl⟩
abbrev main_v10 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  h_S_ : 0 < S_.numel
  bcast_S16x4096_S16x4096x3_0_1 : S16x4096.BroadcastsInDim S16x4096x3 (![0, 1] : Fin 2 → Fin S16x4096x3.rank)
  bcast_S_S16x4096x3 : S_.BroadcastsInDim S16x4096x3 (![] : Fin 0 → Fin S16x4096x3.rank)
  transposes_S16x4096x3_S16x3x4096_0_2_1 : S16x4096x3.Transposes [0, 2, 1] S16x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  slices_S1x4096_o0_0_S1x1024 : S1x4096.Slices ![0, 0] S1x1024
  transposes_S1x1024_p1_0_S1024x1 : S1x1024.Transposes [1, 0] S1024x1
  slices_S3x4096_o0_0_S3x1024 : S3x4096.Slices ![0, 0] S3x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  slices_S3x4096_o0_1024_S3x1024 : S3x4096.Slices ![0, 1024] S3x1024
  slices_S1x4096_o0_1024_S1x1024 : S1x4096.Slices ![0, 1024] S1x1024
  inb_S1x4096_S1x1024_0_1024 : ∀ a, (![0, 1024] : Fin 2 → Nat) a + S1x1024.size a ≤ S1x4096.size a
  slices_S3x4096_o0_2048_S3x1024 : S3x4096.Slices ![0, 2048] S3x1024
  slices_S1x4096_o0_2048_S1x1024 : S1x4096.Slices ![0, 2048] S1x1024
  inb_S1x4096_S1x1024_0_2048 : ∀ a, (![0, 2048] : Fin 2 → Nat) a + S1x1024.size a ≤ S1x4096.size a
  slices_S3x4096_o0_3072_S3x1024 : S3x4096.Slices ![0, 3072] S3x1024
  slices_S1x4096_o0_3072_S1x1024 : S1x4096.Slices ![0, 3072] S1x1024
  inb_S1x4096_S1x1024_0_3072 : ∀ a, (![0, 3072] : Fin 2 → Nat) a + S1x1024.size a ≤ S1x4096.size a
  reduces_S1024x1_S1024 : S1024x1.Reduces [1] S1024
  reduces_S1024x1_S1 : S1024x1.Reduces [0] S1
  shapeCasts_S1_S1x1 : S1.ShapeCasts S1x1
  reduces_S1x4096_S1 : S1x4096.Reduces [1] S1
  reduces_S1x1_S1 : S1x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S16x1x1_S16 : S16x1x1.ShapeCasts S16
  reducesTo_S16_S_d0 : S16.ReducesTo [0] S_
  gather_S16x100000x3_S16x4096x1_S16x4096x3_2_1_0_0_1_2_113_wf : GatherDims.WF S16x100000x3 S16x4096x1 S16x4096x3 [2] [1] [0] [1] [0] 2 ![1, 1, 3]
  dot_S3x1024_S3x1024_S1024x1024_0_0_1_1_n_n_wf : DotDims.WF S3x1024 S3x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S16x3x4096.size a
  hwx0_0 : ∀ i : grid0.Coords, EltTy.bits .f32 = 32 ∨ (Rect.block (s := S16x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)

variable [Facts₀]

def gather_S16x100000x3_S16x4096x1_S16x4096x3_2_1_0_0_1_2_113 : GatherDims S16x100000x3 S16x4096x1 S16x4096x3 where
  offsetDims := [2]
  collapsedSliceDims := [1]
  operandBatchingDims := [0]
  startIndicesBatchingDims := [0]
  startIndexMap := [1]
  indexVectorDim := 2
  sliceSizes := ![1, 1, 3]
  wf := gather_S16x100000x3_S16x4096x1_S16x4096x3_2_1_0_0_1_2_113_wf
def dot_S3x1024_S3x1024_S1024x1024_0_0_1_1_n_n : DotDims S3x1024 S3x1024 S1024x1024 where
  lhsContracting := [0]
  rhsContracting := [0]
  lhsNonContracting := [1]
  rhsNonContracting := [1]
  lhsBatch := []
  rhsBatch := []
  wf := dot_S3x1024_S3x1024_S1024x1024_0_0_1_1_n_n_wf

abbrev win0_0 : Pipeline.Window sig grid0 :=
  Pipeline.Window.ofSpec (Memref.whole main_v4) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x100000x3 : Shape := ⟨3, ![16, 100000, 3]⟩
abbrev S16x4096 : Shape := ⟨2, ![16, 4096]⟩
abbrev S16x4096x1 : Shape := ⟨3, ![16, 4096, 1]⟩
abbrev S_ : Shape := ⟨0, ![]⟩
abbrev S1 : Shape := ⟨1, ![1]⟩
abbrev S1x1x1 : Shape := ⟨3, ![1, 1, 1]⟩
abbrev S16x4096x3 : Shape := ⟨3, ![16, 4096, 3]⟩
abbrev S16x4096x4096 : Shape := ⟨3, ![16, 4096, 4096]⟩
abbrev S16x1x4096 : Shape := ⟨3, ![16, 1, 4096]⟩
abbrev S16 : Shape := ⟨1, ![16]⟩

abbrev nBuf : Space → Nat
  | .hbm => 85
  | .vmem => 0
  | .smem => 0
  | _ => 0

abbrev bufTy : (tb : Table) → Fin (tcTables nBuf tb) → BufTy
  | .hbm, ⟨0, _⟩ => ⟨S16x100000x3, .f32⟩
  | .hbm, ⟨1, _⟩ => ⟨S16x100000x3, .f32⟩
  | .hbm, ⟨2, _⟩ => ⟨S16x4096, .i32⟩
  | .hbm, ⟨3, _⟩ => ⟨S16x4096, .i32⟩
  | .hbm, ⟨4, _⟩ => ⟨S16x4096x1, .i32⟩
  | .hbm, ⟨5, _⟩ => ⟨S_, .i32⟩
  | .hbm, ⟨6, _⟩ => ⟨S16x4096x1, .i32⟩
  | .hbm, ⟨7, _⟩ => ⟨S16x4096x1, .i1⟩
  | .hbm, ⟨8, _⟩ => ⟨S_, .i32⟩
  | .hbm, ⟨9, _⟩ => ⟨S16x4096x1, .i32⟩
  | .hbm, ⟨10, _⟩ => ⟨S16x4096x1, .i32⟩
  | .hbm, ⟨11, _⟩ => ⟨S16x4096x1, .i32⟩
  | .hbm, ⟨12, _⟩ => ⟨S1, .i32⟩
  | .hbm, ⟨13, _⟩ => ⟨S_, .i32⟩
  | .hbm, ⟨14, _⟩ => ⟨S16x4096x1, .i32⟩
  | .hbm, ⟨15, _⟩ => ⟨S16x4096x1, .i1⟩
  | .hbm, ⟨16, _⟩ => ⟨S1x1x1, .i32⟩
  | .hbm, ⟨17, _⟩ => ⟨S16x4096x1, .i32⟩
  | .hbm, ⟨18, _⟩ => ⟨S16x4096x1, .i1⟩
  | .hbm, ⟨19, _⟩ => ⟨S16x4096x1, .i1⟩
  | .hbm, ⟨20, _⟩ => ⟨S_, .i1⟩
  | .hbm, ⟨21, _⟩ => ⟨S16x4096, .i1⟩
  | .hbm, ⟨22, _⟩ => ⟨S16x4096x3, .f32⟩
  | .hbm, ⟨23, _⟩ => ⟨S16x4096x3, .i1⟩
  | .hbm, ⟨24, _⟩ => ⟨S_, .f32⟩
  | .hbm, ⟨25, _⟩ => ⟨S16x4096x3, .f32⟩
  | .hbm, ⟨26, _⟩ => ⟨S16x4096x3, .f32⟩
  | .hbm, ⟨27, _⟩ => ⟨S16x4096x1, .i32⟩
  | .hbm, ⟨28, _⟩ => ⟨S_, .i32⟩
  | .hbm, ⟨29, _⟩ => ⟨S16x4096x1, .i32⟩
  | .hbm, ⟨30, _⟩ => ⟨S16x4096x1, .i1⟩
  | .hbm, ⟨31, _⟩ => ⟨S_, .i32⟩
  | .hbm, ⟨32, _⟩ => ⟨S16x4096x1, .i32⟩
  | .hbm, ⟨33, _⟩ => ⟨S16x4096x1, .i32⟩
  | .hbm, ⟨34, _⟩ => ⟨S16x4096x1, .i32⟩
  | .hbm, ⟨35, _⟩ => ⟨S1, .i32⟩
  | .hbm, ⟨36, _⟩ => ⟨S_, .i32⟩
  | .hbm, ⟨37, _⟩ => ⟨S16x4096x1, .i32⟩
  | .hbm, ⟨38, _⟩ => ⟨S16x4096x1, .i1⟩
  | .hbm, ⟨39, _⟩ => ⟨S1x1x1, .i32⟩
  | .hbm, ⟨40, _⟩ => ⟨S16x4096x1, .i32⟩
  | .hbm, ⟨41, _⟩ => ⟨S16x4096x1, .i1⟩
  | .hbm, ⟨42, _⟩ => ⟨S16x4096x1, .i1⟩
  | .hbm, ⟨43, _⟩ => ⟨S_, .i1⟩
  | .hbm, ⟨44, _⟩ => ⟨S16x4096, .i1⟩
  | .hbm, ⟨45, _⟩ => ⟨S16x4096x3, .f32⟩
  | .hbm, ⟨46, _⟩ => ⟨S16x4096x3, .i1⟩
  | .hbm, ⟨47, _⟩ => ⟨S_, .f32⟩
  | .hbm, ⟨48, _⟩ => ⟨S16x4096x3, .f32⟩
  | .hbm, ⟨49, _⟩ => ⟨S16x4096x3, .f32⟩
  | .hbm, ⟨50, _⟩ => ⟨S16x4096x3, .f32⟩
  | .hbm, ⟨51, _⟩ => ⟨S_, .f32⟩
  | .hbm, ⟨52, _⟩ => ⟨S16x4096, .f32⟩
  | .hbm, ⟨53, _⟩ => ⟨S16x4096x3, .f32⟩
  | .hbm, ⟨54, _⟩ => ⟨S_, .f32⟩
  | .hbm, ⟨55, _⟩ => ⟨S16x4096, .f32⟩
  | .hbm, ⟨56, _⟩ => ⟨S16x4096x4096, .f32⟩
  | .hbm, ⟨57, _⟩ => ⟨S16x4096x1, .f32⟩
  | .hbm, ⟨58, _⟩ => ⟨S16x1x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S16x4096x4096, .f32⟩
  | .hbm, ⟨64, _⟩ => ⟨S16x4096x4096, .f32⟩
  | .hbm, ⟨65, _⟩ => ⟨S16x4096x4096, .f32⟩
  | .hbm, ⟨66, _⟩ => ⟨S_, .f32⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S_, .f32⟩
  | .hbm, ⟨72, _⟩ => ⟨S16x4096, .f32⟩
  | .hbm, ⟨73, _⟩ => ⟨S16x4096, .f32⟩
  | .hbm, ⟨74, _⟩ => ⟨S_, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S16x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_cst : Ref sig .tc := ⟨.hbm, 51, rfl⟩
abbrev main_v5 : Ref sig .tc := ⟨.hbm, 52, rfl⟩
abbrev main_v6 : Ref sig .tc := ⟨.hbm, 53, rfl⟩
abbrev main_cst_0 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_cst_1 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst_2 : Ref sig .tc := ⟨.hbm, 66, rfl⟩
abbrev main_v17 : Ref sig .tc := ⟨.hbm, 67, rfl⟩
abbrev main_v18 : Ref sig .tc := ⟨.hbm, 68, rfl⟩
abbrev main_cst_3 : Ref sig .tc := ⟨.hbm, 69, rfl⟩
abbrev main_v19 : Ref sig .tc := ⟨.hbm, 70, rfl⟩
abbrev main_cst_4 : Ref sig .tc := ⟨.hbm, 71, rfl⟩
abbrev main_v20 : Ref sig .tc := ⟨.hbm, 72, rfl⟩
abbrev main_v21 : Ref sig .tc := ⟨.hbm, 73, rfl⟩
abbrev main_cst_5 : Ref sig .tc := ⟨.hbm, 74, rfl⟩
abbrev main_v22 : Ref sig .tc := ⟨.hbm, 75, rfl⟩
abbrev main_cst_6 : Ref sig .tc := ⟨.hbm, 76, rfl⟩
abbrev main_v23 : Ref sig .tc := ⟨.hbm, 77, rfl⟩
abbrev main_v24 : Ref sig .tc := ⟨.hbm, 78, rfl⟩
abbrev main_cst_7 : Ref sig .tc := ⟨.hbm, 79, rfl⟩
abbrev main_v25 : Ref sig .tc := ⟨.hbm, 80, rfl⟩
abbrev main_cst_8 : Ref sig .tc := ⟨.hbm, 81, rfl⟩
abbrev main_v26 : Ref sig .tc := ⟨.hbm, 82, rfl⟩
abbrev main_cst_9 : Ref sig .tc := ⟨.hbm, 83, rfl⟩
abbrev main_v27 : Ref sig .tc := ⟨.hbm, 84, rfl⟩

abbrev nD : Nat := 1
abbrev τ : Topo := Topo.v7x

variable {F : FTy → Type} [FloatOps F]

class Facts₀ : Prop where
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S1_S1x1x1_2 : S1.BroadcastsInDim S1x1x1 (![2] : Fin 1 → Fin S1x1x1.rank)
  bcast_S1x1x1_S16x4096x1_0_1_2 : S1x1x1.BroadcastsInDim S16x4096x1 (![0, 1, 2] : Fin 3 → Fin S16x4096x1.rank)
  reducesTo_S16x4096x1_S16x4096_d2 : S16x4096x1.ReducesTo [2] S16x4096
  h_S_ : 0 < S_.numel
  bcast_S16x4096_S16x4096x3_0_1 : S16x4096.BroadcastsInDim S16x4096x3 (![0, 1] : Fin 2 → Fin S16x4096x3.rank)
  bcast_S_S16x4096x3 : S_.BroadcastsInDim S16x4096x3 (![] : Fin 0 → Fin S16x4096x3.rank)
  reducesTo_S16x4096x3_S16x4096_d2 : S16x4096x3.ReducesTo [2] S16x4096
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16_S_d0 : S16.ReducesTo [0] S_
  gather_S16x100000x3_S16x4096x1_S16x4096x3_2_1_0_0_1_2_113_wf : GatherDims.WF S16x100000x3 S16x4096x1 S16x4096x3 [2] [1] [0] [1] [0] 2 ![1, 1, 3]
  dot_S16x4096x3_S16x4096x3_S16x4096x4096_2_2_1_1_0_0_wf : DotDims.WF S16x4096x3 S16x4096x3 S16x4096x4096 [2] [2] [1] [1] [0] [0]

variable [Facts₀]

def gather_S16x100000x3_S16x4096x1_S16x4096x3_2_1_0_0_1_2_113 : GatherDims S16x100000x3 S16x4096x1 S16x4096x3 where
  offsetDims := [2]
  collapsedSliceDims := [1]
  operandBatchingDims := [0]
  startIndicesBatchingDims := [0]
  startIndexMap := [1]
  indexVectorDim := 2
  sliceSizes := ![1, 1, 3]
  wf := gather_S16x100000x3_S16x4096x1_S16x4096x3_2_1_0_0_1_2_113_wf
def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.LibMins.lean ====
/-
  Running minima over a range of consecutive naturals cut into equal blocks: general lemmas over any linear order,
  with no program in them.  A running minimum is written as the fold of `min` from a start value `t` over a finite
  index set, `Finset.univ.fold min t f`; it is characterised by its lower bounds (`c` is below it exactly when
  `c ≤ t` and `c ≤ f x` for every `x`), and every statement here is proved by comparing lower bounds, so no
  idempotence or cancellation is ever computed.

    fold_min_split   the minimum over `n = a · b` positions is the minimum, over the `a` blocks, of each block's own
                     minimum over its `b` positions (position `i · b + j` is position `j` of block `i`);
    fold_min_four    a minimum over four values is the chain `min (min (min (min t g₀) g₁) g₂) g₃`;
    chain_four_split the two together: the chain of four block minima is the minimum over all `4 · b` positions.
-/
import Mathlib.Data.Finset.Fold
import Mathlib.Order.Fin.Basic
import Mathlib.Data.Fintype.Basic
import Mathlib.Tactic

namespace Idealize.ShloMosaic.ValueMins

variable {α : Type*} [LinearOrder α]

/-- A position of a range of length `n = a · b` from its block `i` and its place `j` in the block. -/
theorem mul_add_lt {a b n i j : ℕ} (hn : n = a * b) (hi : i < a) (hj : j < b) : i * b + j < n := by
  subst hn
  calc i * b + j < i * b + b := by omega
    _ = (i + 1) * b := by ring
    _ ≤ a * b := Nat.mul_le_mul_right b hi

/-- The lower bounds of a running minimum over all of a finite type. -/
theorem le_fold_min_univ {ι : Type*} [Fintype ι] (t : α) (f : ι → α) (c : α) :
    c ≤ Finset.univ.fold min t f ↔ c ≤ t ∧ ∀ x, c ≤ f x := by
  rw [Finset.le_fold_min]
  exact and_congr_right fun _ => ⟨fun h x => h x (Finset.mem_univ x), fun h x _ => h x⟩

/-- The minimum over `n = a · b` positions is the minimum over the blocks of the blocks' minima. -/
theorem fold_min_split {a b n : ℕ} (hn : n = a * b) (t : α) (f : Fin n → α) :
    Finset.univ.fold min t f
      = Finset.univ.fold min t fun i : Fin a =>
          Finset.univ.fold min t fun j : Fin b => f ⟨i.val * b + j.val, mul_add_lt hn i.isLt j.isLt⟩ := by
  refine eq_of_forall_le_iff fun c => ?_
  rw [le_fold_min_univ, le_fold_min_univ]
  refine and_congr_right fun ht => ⟨fun h i => ?_, fun h q => ?_⟩
  · rw [le_fold_min_univ]
    exact ⟨ht, fun j => h _⟩
  · have hb : 0 < b := Nat.pos_of_ne_zero fun h0 => by
      have hq := q.isLt
      have hn0 : n = 0 := by rw [hn, h0, Nat.mul_zero]
      omega
    have hq : q.val / b < a := Nat.div_lt_of_lt_mul (by rw [Nat.mul_comm]; exact hn ▸ q.isLt)
    have h1 := ((le_fold_min_univ t _ c).mp (h ⟨q.val / b, hq⟩)).2 ⟨q.val % b, Nat.mod_lt _ hb⟩
    have e : (⟨q.val / b * b + q.val % b, mul_add_lt hn hq (Nat.mod_lt _ hb)⟩ : Fin n) = q :=
      Fin.ext (Nat.div_add_mod' q.val b)
    rwa [e] at h1

/-- A minimum over four values, as the chain a running minimum computes. -/
theorem fold_min_four (t : α) (g : Fin 4 → α) :
    Finset.univ.fold min t g = min (min (min (min t (g 0)) (g 1)) (g 2)) (g 3) := by
  refine eq_of_forall_le_iff fun c => ?_
  rw [le_fold_min_univ]
  simp only [le_min_iff, Fin.forall_fin_succ, Fin.forall_fin_zero_pi, and_assoc]
  simp

/-- The chain of four block minima is the minimum over all `4 · b` positions. -/
theorem chain_four_split {b n : ℕ} (hn : n = 4 * b) (t : α) (f : Fin n → α) :
    min (min (min (min t
        (Finset.univ.fold min t fun j : Fin b => f ⟨0 * b + j.val, mul_add_lt hn (by decide) j.isLt⟩))
        (Finset.univ.fold min t fun j : Fin b => f ⟨1 * b + j.val, mul_add_lt hn (by decide) j.isLt⟩))
        (Finset.univ.fold min t fun j : Fin b => f ⟨2 * b + j.val, mul_add_lt hn (by decide) j.isLt⟩))
        (Finset.univ.fold min t fun j : Fin b => f ⟨3 * b + j.val, mul_add_lt hn (by decide) j.isLt⟩)
      = Finset.univ.fold min t f := by
  rw [fold_min_split hn t f, fold_min_four]
  rfl

end Idealize.ShloMosaic.ValueMins
-- ==== Proof.LibTiles.lean ====
/-
  A general lemma file, free of any program: shape casts that split or merge one axis, and the cast that drops two leading unit axes,
  each read at an index given by coordinates; and a sum over a merged axis as a double sum.

  A cast keeps the row-major order, so merging axes `[a, b]` into one of length `a · b` sends `(i, j)` to
  `i · b + j`, and splitting sends `q` to `(q / b, q % b)`. The merged length is a separate parameter `n` with
  the hypothesis `n = a · b`, so that the statements apply to shapes written with literal extents.
-/
import Idealize.ShloMosaic.Lib.Pipeline.Value
import Idealize.ShloMosaic.Lib.ValueIdx
import Mathlib.Algebra.BigOperators.Fin

namespace Idealize.ShloMosaic.ValueIdx

open Idealize.ShloMosaic

variable {α : Type}

/-- The quotient of a position of a merged axis is a position of the outer axis. -/
theorem div_lt_of_lt_mul' {a b n p : ℕ} (hn : n = a * b) (hp : p < n) : p / b < a :=
  Nat.div_lt_of_lt_mul (by rw [Nat.mul_comm]; exact hn ▸ hp)

/-- The remainder of a position of a merged axis is a position of the inner axis. -/
theorem mod_lt_of_lt_mul' {a b n p : ℕ} (hn : n = a * b) (hp : p < n) : p % b < b :=
  Nat.mod_lt _ (Nat.pos_of_ne_zero fun h0 => by subst h0; rw [Nat.mul_zero] at hn; omega)

/-- A merged position from its two coordinates. -/
theorem mul_add_lt {a b n i j : ℕ} (hn : n = a * b) (hi : i < a) (hj : j < b) : i * b + j < n := by
  subst hn
  calc i * b + j < i * b + b := by omega
    _ = (i + 1) * b := by ring
    _ ≤ a * b := Nat.mul_le_mul_right b hi

/-- An `[a, b]` array cast to one row `[1, n]`, `n = a · b`, reads at lane `p` the operand at `(p / b, p % b)`. -/
theorem shapeCast_ab_1n_apply {a b n : ℕ} (hn : n = a * b) (x : (⟨2, ![a, b]⟩ : Shape).Idx → α)
    (h : (⟨2, ![a, b]⟩ : Shape).ShapeCasts ⟨2, ![1, n]⟩) (u : Fin 1) (p : Fin n) :
    shapeCast ⟨2, ![1, n]⟩ x h (ix2 u p)
      = x (ix2 ⟨p.val / b, div_lt_of_lt_mul' hn p.isLt⟩ ⟨p.val % b, mod_lt_of_lt_mul' hn p.isLt⟩) :=
  shapeCast_apply x h _ _ (by
    have hu : u.val = 0 := by omega
    rw [Shape.rowMajor_val_two, Shape.rowMajor_val_two]
    show p.val / b * b + p.val % b = u.val * n + p.val
    rw [hu, Nat.zero_mul, Nat.zero_add]
    exact Nat.div_add_mod' p.val b)

/-- An `[a, b, c]` array cast to `[n, c]`, `n = a · b`, reads at `(q, p)` the operand at `(q / b, q % b, p)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (q : Fin n) (p : Fin c) :
    shapeCast ⟨2, ![n, c]⟩ x h (ix2 q p)
      = x (ix3 ⟨q.val / b, div_lt_of_lt_mul' hn q.isLt⟩ ⟨q.val % b, mod_lt_of_lt_mul' hn q.isLt⟩ p) :=
  shapeCast_apply x h _ _ (by
    rw [Shape.rowMajor_val_three, Shape.rowMajor_val_two]
    show (q.val / b * b + q.val % b) * c + p.val = q.val * c + p.val
    rw [Nat.div_add_mod' q.val b])

/-- An `[n, c]` array cast to `[a, b, c]`, `n = a · b`, reads at `(i, j, p)` the operand at `(i · b + j, p)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (i : Fin a) (j : Fin b) (p : Fin c) :
    shapeCast ⟨3, ![a, b, c]⟩ x h (ix3 i j p) = x (ix2 ⟨i.val * b + j.val, mul_add_lt hn i.isLt j.isLt⟩ p) :=
  shapeCast_apply x h _ _ (by
    rw [Shape.rowMajor_val_two, Shape.rowMajor_val_three]
    rfl)

/-- An `[a, n]` array cast to `[a, b, c]`, `n = b · c`, reads at `(i, j, k)` the operand at `(i, j · c + k)`. -/
theorem shapeCast_an_abc_apply {a b c n : ℕ} (hn : n = b * c) (x : (⟨2, ![a, n]⟩ : Shape).Idx → α)
    (h : (⟨2, ![a, n]⟩ : Shape).ShapeCasts ⟨3, ![a, b, c]⟩) (i : Fin a) (j : Fin b) (k : Fin c) :
    shapeCast ⟨3, ![a, b, c]⟩ x h (ix3 i j k) = x (ix2 i ⟨j.val * c + k.val, mul_add_lt hn j.isLt k.isLt⟩) :=
  shapeCast_apply x h _ _ (by
    rw [Shape.rowMajor_val_two, Shape.rowMajor_val_three]
    show i.val * n + (j.val * c + k.val) = (i.val * b + j.val) * c + k.val
    subst hn; ring)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b, c, d]` array cast to `[m, n]`, `m = a · b`, `n = c · d`, reads at `(i · b + j, k · d + l)` the operand at
    `(i, j, k, l)`. -/
theorem shapeCast_abcd_mn_apply {a b c d m n : ℕ} (hm : m = a * b) (hn : n = c * d)
    (x : (⟨4, ![a, b, c, d]⟩ : Shape).Idx → α) (h : (⟨4, ![a, b, c, d]⟩ : Shape).ShapeCasts ⟨2, ![m, n]⟩)
    (i : Fin a) (j : Fin b) (k : Fin c) (l : Fin d) :
    shapeCast ⟨2, ![m, n]⟩ x h (ix2 ⟨i.val * b + j.val, mul_add_lt hm i.isLt j.isLt⟩ ⟨k.val * d + l.val, mul_add_lt hn k.isLt l.isLt⟩)
      = x (ix4 i j k l) :=
  shapeCast_apply x h _ _ (by
    rw [Shape.rowMajor_val_four, Shape.rowMajor_val_two]
    show ((i.val * b + j.val) * c + k.val) * d + l.val = (i.val * b + j.val) * n + (k.val * d + l.val)
    subst hn; ring)

/-- A sum over a merged axis of length `n = a · b` is the double sum over its two coordinates. -/
theorem sum_fin_split {M : Type*} [AddCommMonoid M] {a b n : ℕ} (hn : n = a * b) (F : Fin n → M) :
    ∑ q, F q = ∑ i : Fin a, ∑ j : Fin b, F ⟨i.val * b + j.val, mul_add_lt hn i.isLt j.isLt⟩ := by
  subst hn
  rw [← (finProdFinEquiv (m := a) (n := b)).sum_comp, Fintype.sum_prod_type]
  refine Finset.sum_congr rfl fun i _ => Finset.sum_congr rfl fun j _ => congrArg F (Fin.ext ?_)
  rw [finProdFinEquiv_apply_val]
  show j.val + b * i.val = i.val * b + j.val
  ring

end Idealize.ShloMosaic.ValueIdx
-- ==== Proof.Chamfer.lean ====
/-
  The chamfer loss of two point clouds, as ONE function of the points, over the extended reals — and the same
  number arranged the way a tiled evaluation computes it.

  A cloud is 4096 points of three coordinates.  For clouds p, q:
    sqn p s      = Σ_c p(s,c)²                                   the squared norm of point s
    gram p q s t = Σ_c p(s,c) · q(t,c)                           the inner product of point s of p and point t of q
    dist p q s t = max (sqn p s + sqn q t − 2 · gram p q s t, 0) the clamped squared distance
    rowMin p q s = min_t dist p q s t        colMin p q t = min_s dist p q s t
    batchLoss p q = (Σ_j (colMin p q j + rowMin p q j)) / 4096
    loss P Q      = ((Σ_b batchLoss (P b) (Q b)) / 16) · 1       over 16 pairs of clouds.
  A minimum is the fold of `min` from +∞.  The float literals 2, 4096, 16 and 1 stay the words the programs
  carry; nothing here depends on their values.

  The tiled arrangement cuts the 4096 positions into four blocks of 1024 (`at4 i r` is place r of block i).  A row's
  minimum is the running minimum, from +∞, of its four per-block minima; a column's likewise; and the sum over j of
  colMin + rowMin is the four block sums of the row minima, added in order from 0, plus the sum of the column minima.
  The only laws used are that `min` and `+` are commutative and associative: none needs a finite summand.
-/
import Idealize.ShloMosaic.PureOps.Ideal
import Idealize.ShloMosaic.PureOps.Ideal.Laws
import Idealize.ShloMosaic.Lib.ValueIdx
import Mathlib.Algebra.BigOperators.Fin
import proofs.«158294_j79070347920144_2_alg».proof.Proof.LibMins
import proofs.«158294_j79070347920144_2_alg».proof.Proof.LibTiles

noncomputable section

open scoped BigOperators

namespace Cert.Chamfer

open Idealize.ShloMosaic

/-- A cloud: 4096 points, three coordinates each. -/
abbrev Pts := Fin 4096 → Fin 3 → EReal

/-- The word of the f32 constant 2. -/
abbrev two : EReal := Ideal.ofBits .f32 0x40000000#32
/-- The word of the f32 constant 4096. -/
abbrev n4096 : EReal := Ideal.ofBits .f32 0x45800000#32
/-- The word of the f32 constant 16. -/
abbrev n16 : EReal := Ideal.ofBits .f32 0x41800000#32
/-- The word of the f32 constant 1. -/
abbrev one : EReal := Ideal.ofBits .f32 0x3F800000#32

def sqn (p : Pts) (s : Fin 4096) : EReal := ∑ c : Fin 3, p s c * p s c
def gram (p q : Pts) (s t : Fin 4096) : EReal := ∑ c : Fin 3, p s c * q t c
def dist (p q : Pts) (s t : Fin 4096) : EReal := max (sqn p s + sqn q t - two * gram p q s t) 0
def rowMin (p q : Pts) (s : Fin 4096) : EReal := Finset.univ.fold min ⊤ fun t : Fin 4096 => dist p q s t
def colMin (p q : Pts) (t : Fin 4096) : EReal := Finset.univ.fold min ⊤ fun s : Fin 4096 => dist p q s t
def batchLoss (p q : Pts) : EReal := Ideal.div (∑ j : Fin 4096, (colMin p q j + rowMin p q j)) n4096
def loss (P Q : Fin 16 → Pts) : EReal := Ideal.div (∑ b : Fin 16, batchLoss (P b) (Q b)) n16 * one

/-- Cloud `b` of an array of 16 clouds laid out as [cloud, point, coordinate]. -/
def cloud (g : (⟨3, ![16, 4096, 3]⟩ : Shape).Idx → EReal) (b : Fin 16) : Pts :=
  fun s c => g (Idealize.ShloMosaic.ValueIdx.ix3 b s c)

/-! ## The tiled arrangement -/

theorem h4096 : 4096 = 4 * 1024 := by norm_num

/-- Place `r` of block `i` among the 4096 positions. -/
def at4 (i : Fin 4) (r : Fin 1024) : Fin 4096 :=
  ⟨i.val * 1024 + r.val, Idealize.ShloMosaic.ValueMins.mul_add_lt h4096 i.isLt r.isLt⟩

/-- The minimum of row `at4 i r` over column block `j`. -/
def tileRowMin (p q : Pts) (i j : Fin 4) (r : Fin 1024) : EReal :=
  Finset.univ.fold min ⊤ fun k : Fin 1024 => dist p q (at4 i r) (at4 j k)
/-- The minimum of column `at4 j k` over row block `i`. -/
def tileColMin (p q : Pts) (i j : Fin 4) (k : Fin 1024) : EReal :=
  Finset.univ.fold min ⊤ fun r : Fin 1024 => dist p q (at4 i r) (at4 j k)

/-- A row's minimum is the running minimum of its four block minima. -/
theorem rowMin_chain (p q : Pts) (s : Fin 4096) :
    min (min (min (min ⊤
      (Finset.univ.fold min ⊤ fun k : Fin 1024 => dist p q s (at4 0 k)))
      (Finset.univ.fold min ⊤ fun k : Fin 1024 => dist p q s (at4 1 k)))
      (Finset.univ.fold min ⊤ fun k : Fin 1024 => dist p q s (at4 2 k)))
      (Finset.univ.fold min ⊤ fun k : Fin 1024 => dist p q s (at4 3 k)) = rowMin p q s :=
  Idealize.ShloMosaic.ValueMins.chain_four_split h4096 ⊤ fun t => dist p q s t

/-- A column's minimum is the running minimum of its four block minima. -/
theorem colMin_chain (p q : Pts) (t : Fin 4096) :
    min (min (min (min ⊤
      (Finset.univ.fold min ⊤ fun r : Fin 1024 => dist p q (at4 0 r) t))
      (Finset.univ.fold min ⊤ fun r : Fin 1024 => dist p q (at4 1 r) t))
      (Finset.univ.fold min ⊤ fun r : Fin 1024 => dist p q (at4 2 r) t))
      (Finset.univ.fold min ⊤ fun r : Fin 1024 => dist p q (at4 3 r) t) = colMin p q t :=
  Idealize.ShloMosaic.ValueMins.chain_four_split h4096 ⊤ fun s => dist p q s t

/-- A sum over the 4096 positions is the sum of the four block sums, taken in order from 0. -/
theorem sum_blocks (g : Fin 4096 → EReal) :
    (((0 + ∑ r : Fin 1024, g (at4 0 r)) + ∑ r : Fin 1024, g (at4 1 r)) + ∑ r : Fin 1024, g (at4 2 r))
      + ∑ r : Fin 1024, g (at4 3 r) = ∑ j : Fin 4096, g j := by
  rw [Idealize.ShloMosaic.ValueIdx.sum_fin_split h4096 g, Fin.sum_univ_four, zero_add]
  rfl

/-- The loss of one pair of clouds from the block sums of the row minima and the sum of the column minima. -/
theorem batchLoss_blocks (p q : Pts) :
    Ideal.div (((((0 + ∑ r : Fin 1024, rowMin p q (at4 0 r)) + ∑ r : Fin 1024, rowMin p q (at4 1 r))
        + ∑ r : Fin 1024, rowMin p q (at4 2 r)) + ∑ r : Fin 1024, rowMin p q (at4 3 r))
        + ∑ k : Fin 4096, colMin p q k) n4096 = batchLoss p q := by
  unfold batchLoss
  rw [sum_blocks (rowMin p q), Finset.sum_add_distrib, add_comm]

end Cert.Chamfer

end
-- ==== Proof.RefValue.lean ====
/-
  The reference's result is the chamfer loss of the two gathered arrays of clouds.

  The reference computes, from the gathered arrays A and B (16 clouds of 4096 points of 3 coordinates each), for every
  cloud b and every pair of points (s, t):
    the squared norms   Σ_c A(b,s,c)²  and  Σ_c B(b,t,c)²,
    the inner product   Σ_c A(b,s,c) · B(b,t,c),
    the clamped squared distance  max (‖A(b,s)‖² + ‖B(b,t)‖² − 2 · ⟨A(b,s), B(b,t)⟩, 0),
  then the minimum of the distances over s (a minimum along axis 1, started from +∞) and over t (along axis 2), the sum
  over the 4096 positions j of the two minima at (b, j), divided by 4096, the sum over the 16 clouds of these quotients,
  divided by 16, times 1.  Read one operation at a time at an index built from its coordinates, each stage is the
  matching function of the specification at clouds b of A and of B; the gathered arrays themselves are never opened.
-/
import proofs.«158294_j79070347920144_2_alg».proof.Proof.RefReadPatched
import proofs.«158294_j79070347920144_2_alg».proof.Proof.Chamfer

noncomputable section

namespace Cert.ReferenceIdeal.RefValue

open Cert.ReferenceIdeal Cert.ReferenceIdeal.ReadP Idealize.ShloMosaic Idealize.ShloMosaic.ValueIdx
open scoped BigOperators

/-- The word 0x7F800000 is +∞. -/
theorem ofBits_inf_f32 : Ideal.ofBits .f32 0x7F800000#32 = ⊤ := by simp [Ideal.ofBits, Ideal.ieee]

/-- Dropping axis 1 of [16, 4096, 4096] leaves [16, 4096]. -/
theorem red1 : S16x4096x4096.Reduces [1] S16x4096 := by decide
/-- Dropping axis 2 of [16, 4096, 4096] leaves [16, 4096]. -/
theorem red2 : S16x4096x4096.Reduces [2] S16x4096 := by decide

/-- A rank-1 index set is its one coordinate's range. -/
def idxEquiv1 {n : Nat} : (⟨1, ![n]⟩ : Shape).Idx ≃ Fin n where
  toFun i := i 0
  invFun := ix1
  left_inv i := (eq_ix1 i).symm
  right_inv _ := rfl

section Stages

variable (x0 x1 : (⟨S16x100000x3, .f32⟩ : BufTy).Contents (Elt Ideal))
  (x2 x3 : (⟨S16x4096, .i32⟩ : BufTy).Contents (Elt Ideal))

/-- The sum of squares along the coordinate axis of the first array, at (b, s): the squared norm of point s of its
    cloud b. -/
theorem v5_at (b : Fin 16) (s : Fin 4096) :
    val_main_v5 (F := Ideal) x0 x2 (ix2 b s)
      = Cert.Chamfer.sqn (Cert.Chamfer.cloud (val_main_v1 (F := Ideal) x0 x2) b) s := by
  rw [val_main_v5_apply]
  simp only [val_main_v4_apply, val_main_cst_apply, Ideal.ofBits_def, Ideal.ofBits_zero_f32, Ideal.mulf_def, zero_add]
  unfold Cert.Chamfer.sqn Cert.Chamfer.cloud
  refine Finset.sum_congr rfl fun k _ => ?_
  have e : idx_main_v5 (ix2 b s) k = ix3 b s k :=
    funext fun a => Fin.ext (by match a with | ⟨0, _⟩ => rfl | ⟨1, _⟩ => rfl | ⟨2, _⟩ => rfl)
  rw [e]

/-- The same for the second array, at (b, t). -/
theorem v7_at (b : Fin 16) (t : Fin 4096) :
    val_main_v7 (F := Ideal) x1 x3 (ix2 b t)
      = Cert.Chamfer.sqn (Cert.Chamfer.cloud (val_main_v3 (F := Ideal) x1 x3) b) t := by
  rw [val_main_v7_apply]
  simp only [val_main_v6_apply, val_main_cst_0_apply, Ideal.ofBits_def, Ideal.ofBits_zero_f32, Ideal.mulf_def, zero_add]
  unfold Cert.Chamfer.sqn Cert.Chamfer.cloud
  refine Finset.sum_congr rfl fun k _ => ?_
  have e : idx_main_v7 (ix2 b t) k = ix3 b t k :=
    funext fun a => Fin.ext (by match a with | ⟨0, _⟩ => rfl | ⟨1, _⟩ => rfl | ⟨2, _⟩ => rfl)
  rw [e]

/-- The batched contraction over the coordinate axis, at (b, s, t): the inner product of point s of the first cloud b
    and point t of the second. -/
theorem v8_at (b : Fin 16) (s t : Fin 4096) :
    val_main_v8 (F := Ideal) x0 x1 x2 x3 (ix3 b s t)
      = Cert.Chamfer.gram (Cert.Chamfer.cloud (val_main_v1 (F := Ideal) x0 x2) b)
          (Cert.Chamfer.cloud (val_main_v3 (F := Ideal) x1 x3) b) s t := by
  rw [val_main_v8_apply]
  unfold Cert.Chamfer.gram Cert.Chamfer.cloud
  refine Finset.sum_congr rfl fun k _ => ?_
  have el : lidx_main_v8 (ix3 b s t) k = ix3 b s k :=
    funext fun a => Fin.ext (by match a with | ⟨0, _⟩ => rfl | ⟨1, _⟩ => rfl | ⟨2, _⟩ => rfl)
  have er : ridx_main_v8 (ix3 b s t) k = ix3 b t k :=
    funext fun a => Fin.ext (by match a with | ⟨0, _⟩ => rfl | ⟨1, _⟩ => rfl | ⟨2, _⟩ => rfl)
  rw [el, er]

/-- The clamped difference at (b, s, t): the squared norm at (b, s) spread along t, plus the squared norm at (b, t)
    spread along s, minus twice the inner product, clamped below at 0 — the clamped squared distance. -/
theorem v18_at (b : Fin 16) (s t : Fin 4096) :
    val_main_v18 (F := Ideal) x0 x1 x2 x3 (ix3 b s t)
      = Cert.Chamfer.dist (Cert.Chamfer.cloud (val_main_v1 (F := Ideal) x0 x2) b)
          (Cert.Chamfer.cloud (val_main_v3 (F := Ideal) x1 x3) b) s t := by
  have e1 : idx_main_v9 (idx_main_v11 (ix3 b s t)) = ix2 b s :=
    funext fun a => Fin.ext (by match a with | ⟨0, _⟩ => rfl | ⟨1, _⟩ => rfl)
  have e2 : idx_main_v10 (idx_main_v12 (ix3 b s t)) = ix2 b t :=
    funext fun a => Fin.ext (by match a with | ⟨0, _⟩ => rfl | ⟨1, _⟩ => rfl)
  rw [val_main_v18_apply, val_main_v16_apply, val_main_v13_apply, val_main_v15_apply, val_main_v11_apply,
    val_main_v9_apply, val_main_v12_apply, val_main_v10_apply, val_main_v14_apply, val_main_v17_apply,
    val_main_cst_1_apply, val_main_cst_2_apply, e1, e2, v5_at, v7_at, v8_at]
  simp only [Ideal.ofBits_def, Ideal.ofBits_zero_f32, Ideal.mulf_def, Ideal.addf_def, Ideal.subf_def, Ideal.maximumf_def]
  rfl

/-- The minimum along axis 1, at (b, j): from +∞, over the first point index s, of the distance at (b, s, j) — the
    minimum of column j. -/
theorem v19_at (b : Fin 16) (j : Fin 4096) :
    val_main_v19 (F := Ideal) x0 x1 x2 x3 (ix2 b j)
      = Cert.Chamfer.colMin (Cert.Chamfer.cloud (val_main_v1 (F := Ideal) x0 x2) b)
          (Cert.Chamfer.cloud (val_main_v3 (F := Ideal) x1 x3) b) j := by
  unfold val_main_v19
  refine (Host.reduce_eq_fold_single (FloatOps.minimumf (F := Ideal) (φ := .f32)) (val_main_v18 (F := Ideal) x0 x1 x2 x3)
    (val_main_cst_3 (F := Ideal)) Facts₀.reducesTo_S16x4096x4096_S16x4096_d1 red1 Facts₀.h_S_ (ix2 b j)).trans ?_
  rw [val_main_cst_3_apply, Ideal.ofBits_def, ofBits_inf_f32]
  have e : (val_main_v18 (F := Ideal) x0 x1 x2 x3 ∘ red1.lift (ix2 b j))
      = fun s : Fin 4096 => Cert.Chamfer.dist (Cert.Chamfer.cloud (val_main_v1 (F := Ideal) x0 x2) b)
          (Cert.Chamfer.cloud (val_main_v3 (F := Ideal) x1 x3) b) s j := funext fun (s : Fin 4096) => by
    have el : red1.lift (ix2 b j) s = ix3 b s j :=
      funext fun a => Fin.ext (by match a with | ⟨0, _⟩ => rfl | ⟨1, _⟩ => rfl | ⟨2, _⟩ => rfl)
    show val_main_v18 (F := Ideal) x0 x1 x2 x3 (red1.lift (ix2 b j) s) = _
    rw [el, v18_at]
  rw [e]
  rfl

/-- The minimum along axis 2, at (b, j): from +∞, over the second point index t, of the distance at (b, j, t) — the
    minimum of row j. -/
theorem v20_at (b : Fin 16) (j : Fin 4096) :
    val_main_v20 (F := Ideal) x0 x1 x2 x3 (ix2 b j)
      = Cert.Chamfer.rowMin (Cert.Chamfer.cloud (val_main_v1 (F := Ideal) x0 x2) b)
          (Cert.Chamfer.cloud (val_main_v3 (F := Ideal) x1 x3) b) j := by
  unfold val_main_v20
  refine (Host.reduce_eq_fold_single (FloatOps.minimumf (F := Ideal) (φ := .f32)) (val_main_v18 (F := Ideal) x0 x1 x2 x3)
    (val_main_cst_4 (F := Ideal)) Facts₀.reducesTo_S16x4096x4096_S16x4096_d2 red2 Facts₀.h_S_ (ix2 b j)).trans ?_
  rw [val_main_cst_4_apply, Ideal.ofBits_def, ofBits_inf_f32]
  have e : (val_main_v18 (F := Ideal) x0 x1 x2 x3 ∘ red2.lift (ix2 b j))
      = fun t : Fin 4096 => Cert.Chamfer.dist (Cert.Chamfer.cloud (val_main_v1 (F := Ideal) x0 x2) b)
          (Cert.Chamfer.cloud (val_main_v3 (F := Ideal) x1 x3) b) j t := funext fun (t : Fin 4096) => by
    have el : red2.lift (ix2 b j) t = ix3 b j t :=
      funext fun a => Fin.ext (by match a with | ⟨0, _⟩ => rfl | ⟨1, _⟩ => rfl | ⟨2, _⟩ => rfl)
    show val_main_v18 (F := Ideal) x0 x1 x2 x3 (red2.lift (ix2 b j) t) = _
    rw [el, v18_at]
  rw [e]
  rfl

/-- The sum over the 4096 positions of the two minima, divided by 4096, at cloud b: the loss of pair b. -/
theorem v24_at (b : Fin 16) :
    val_main_v24 (F := Ideal) x0 x1 x2 x3 (ix1 b)
      = Cert.Chamfer.batchLoss (Cert.Chamfer.cloud (val_main_v1 (F := Ideal) x0 x2) b)
          (Cert.Chamfer.cloud (val_main_v3 (F := Ideal) x1 x3) b) := by
  rw [val_main_v24_apply, val_main_v22_apply, val_main_v23_apply, val_main_cst_5_apply, val_main_cst_6_apply]
  simp only [Ideal.ofBits_def, Ideal.ofBits_zero_f32, Ideal.hostDivf_def, zero_add]
  unfold Cert.Chamfer.batchLoss
  refine congrArg (fun z => Ideal.div z Cert.Chamfer.n4096) (Finset.sum_congr rfl fun k _ => ?_)
  have e : idx_main_v22 (ix1 b) k = ix2 b k :=
    funext fun a => Fin.ext (by match a with | ⟨0, _⟩ => rfl | ⟨1, _⟩ => rfl)
  rw [e, val_main_v21_apply, v19_at, v20_at, Ideal.addf_def]

end Stages

/-- The reference's result: the sum over the 16 pairs of their losses, divided by 16, times 1 — the chamfer loss of
    the two gathered arrays of clouds. -/
theorem result_eq (x0 x1 : (⟨S16x100000x3, .f32⟩ : BufTy).Contents (Elt Ideal))
    (x2 x3 : (⟨S16x4096, .i32⟩ : BufTy).Contents (Elt Ideal)) (i : S_.Idx) :
    val_main_v27 (F := Ideal) x0 x1 x2 x3 i
      = Cert.Chamfer.loss (Cert.Chamfer.cloud (val_main_v1 (F := Ideal) x0 x2))
          (Cert.Chamfer.cloud (val_main_v3 (F := Ideal) x1 x3)) := by
  rw [val_main_v27_apply, val_main_v26_apply, val_main_v25_apply, val_main_cst_7_apply, val_main_cst_8_apply,
    val_main_cst_9_apply]
  simp only [Ideal.ofBits_def, Ideal.ofBits_zero_f32, Ideal.hostDivf_def, Ideal.mulf_def, zero_add]
  unfold Cert.Chamfer.loss
  refine congrArg (fun z => Ideal.div z Cert.Chamfer.n16 * Cert.Chamfer.one) ?_
  rw [← Equiv.sum_comp (idxEquiv1 (n := 16)).symm]
  exact Finset.sum_congr rfl fun b _ => v24_at x0 x1 x2 x3 b

end Cert.ReferenceIdeal.RefValue

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.BlockOps.lean ====
/-
  The building blocks of the kernel body as pure functions, and what each is at an index over the extended reals.

  The body works on two clouds held coordinate-major, `X : [3, 4096]` (coordinate c of point s at (c, s)).  Its
  building blocks, for any float instance:
    sqRow X          the row [1, 4096] of squared norms, Σ_c X(c,s)²;
    colOf, tileOf    a block of 1024 consecutive points: of the squared norms turned into a column [1024, 1], of the cloud;
    tile             the 1024 × 1024 block of clamped squared distances max (a_q + b_k − 2 · Σ_c S(c,q) · T(c,k), 0)
                     from a column a of squared norms, a row b of squared norms, and the two blocks S, T of points;
    rmin, cmin       the minimum of a tile along its rows (a column [1024,1]) and along its columns (a row [1,1024]);
    colSum, rowSum   the sum of all entries of a column [1024,1] and of a row [1,4096], as a [1,1] array.
  Over the extended reals every one of them, read at an index, is the formula its name says: a sum is a finite
  sum, a minimum the fold of `min` from +∞.
-/
import proofs.«158294_j79070347920144_2_alg».proof.Proof.Gen.KernelIdeal
import proofs.«158294_j79070347920144_2_alg».proof.Proof.LibLayout
import proofs.«158294_j79070347920144_2_alg».proof.Proof.Chamfer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockOps

open Cert.KernelIdeal Idealize.ShloMosaic Idealize.ShloMosaic.ValueIdx
open Facts₀ Facts

section Defs

variable {F : FTy → Type} [FloatOps F]

/-- The row of squared norms of a coordinate-major cloud. -/
def sqRow (X : FVec F S3x4096 .f32) : FVec F S1x4096 .f32 :=
  shapeCast S1x4096 (multiReduction .add [0] S4096 (mulf X X) 0x00000000#32 reduces_S3x4096_S4096 (.inl rfl) rfl)
    shapeCasts_S4096_S1x4096

/-- A block of 1024 entries of a row, turned into a column. -/
def colOf (off : Fin 2 → Nat) (hs : S1x4096.Slices off S1x1024) (s2 : FVec F S1x4096 .f32) : FVec F S1024x1 .f32 :=
  transpose S1024x1 [1, 0] (extractStridedSlice S1x1024 off s2 hs) transposes_S1x1024_p1_0_S1024x1

/-- The block of clamped squared distances. -/
def tile (srcT dstT : FVec F S3x1024 .f32) (s2c : FVec F S1024x1 .f32) (d2r : FVec F S1x1024 .f32) :
    FVec F S1024x1024 .f32 :=
  maximumf
    (subf (addf (broadcastTo S1024x1024 s2c broadcasts_S1024x1_S1024x1024)
                (broadcastTo S1024x1024 d2r broadcasts_S1x1024_S1024x1024))
          (mulf (broadcast S1024x1024 (Scalar.ofBits .f32 0x40000000#32))
                (matmul dot_S3x1024_S3x1024_S1024x1024_0_0_1_1_n_n (some .fp32) srcT dstT
                  (constant S1024x1024 .f32 0x00000000#32))))
    (broadcast S1024x1024 (Scalar.ofBits .f32 0x00000000#32))

/-- The minimum of each row of a tile, as a column. -/
def rmin (D : FVec F S1024x1024 .f32) : FVec F S1024x1 .f32 :=
  shapeCast S1024x1 (multiReduction .minimumf [1] S1024 D 0x7F800000#32 reduces_S1024x1024_S1024 (.inl rfl) rfl)
    shapeCasts_S1024_S1024x1

/-- The minimum of each column of a tile, as a row. -/
def cmin (D : FVec F S1024x1024 .f32) : FVec F S1x1024 .f32 :=
  shapeCast S1x1024 (multiReduction .minimumf [0] S1024 D 0x7F800000#32 reduces_S1024x1024_S1024_2 (.inl rfl) rfl)
    shapeCasts_S1024_S1x1024

/-- The sum of a column's entries. -/
def colSum (X : FVec F S1024x1 .f32) : FVec F S1x1 .f32 :=
  shapeCast S1x1
    (multiReduction .add [0] S1
      (shapeCast S1024x1 (multiReduction .add [1] S1024 X 0x00000000#32 reduces_S1024x1_S1024 (.inl rfl) rfl)
        shapeCasts_S1024_S1024x1)
      0x00000000#32 reduces_S1024x1_S1 (.inl rfl) rfl)
    shapeCasts_S1_S1x1

/-- The sum of a row's entries. -/
def rowSum (X : FVec F S1x4096 .f32) : FVec F S1x1 .f32 :=
  shapeCast S1x1
    (multiReduction .add [0] S1
      (shapeCast S1x1 (multiReduction .add [1] S1 X 0x00000000#32 reduces_S1x4096_S1 (.inl rfl) rfl) shapeCasts_S1_S1x1)
      0x00000000#32 reduces_S1x1_S1 (.inl rfl) rfl)
    shapeCasts_S1_S1x1

end Defs

/-! ## At an index, over the extended reals -/

/-- The word of +∞. -/
theorem ofBits_inf : Ideal.ofBits .f32 0x7F800000#32 = (⊤ : EReal) := by simp [Ideal.ofBits, Ideal.ieee]

theorem sqRow_apply (X : FVec Ideal S3x4096 .f32) (u : Fin 1) (s : Fin 4096) :
    sqRow X (ix2 u s) = ∑ c : Fin 3, X (ix2 c s) * X (ix2 c s) := by
  unfold sqRow
  refine (shapeCast_a_1a_apply _ shapeCasts_S4096_S1x4096 u s).trans ?_
  refine (Ideal.multiReduction_add_single (mulf X X) 0x00000000#32 reduces_S3x4096_S4096 (.inl rfl) rfl (ix1 s)).trans ?_
  refine Finset.sum_congr rfl fun c _ => ?_
  have e : reduces_S3x4096_S4096.lift (ix1 s) c = ix2 c s :=
    funext fun a => Fin.ext (by match a with | ⟨0, _⟩ => rfl | ⟨1, _⟩ => rfl)
  rw [e]; rfl

theorem colOf_apply (o : Nat) (hs : S1x4096.Slices ![0, o] S1x1024) (s2 : FVec Ideal S1x4096 .f32)
    (q : Fin 1024) (u : Fin 1) (k : Fin 4096) (hk : k.val = o + q.val) :
    colOf ![0, o] hs s2 (ix2 q u) = s2 (ix2 (0 : Fin 1) k) := by
  unfold colOf
  have hu : u = 0 := Fin.ext (by omega)
  subst hu
  refine (transpose_ix2_apply _ transposes_S1x1024_p1_0_S1024x1 q (0 : Fin 1)).trans ?_
  exact slice2_axis1_apply o s2 hs (0 : Fin 1) q k hk

theorem tileOf_apply (o : Nat) (hs : S3x4096.Slices ![0, o] S3x1024) (X : FVec Ideal S3x4096 .f32)
    (c : Fin 3) (q : Fin 1024) (k : Fin 4096) (hk : k.val = o + q.val) :
    extractStridedSlice S3x1024 ![0, o] X hs (ix2 c q) = X (ix2 c k) :=
  slice2_axis1_apply o X hs c q k hk

theorem rowOf_apply (o : Nat) (hs : S1x4096.Slices ![0, o] S1x1024) (X : FVec Ideal S1x4096 .f32)
    (u : Fin 1) (q : Fin 1024) (k : Fin 4096) (hk : k.val = o + q.val) :
    extractStridedSlice S1x1024 ![0, o] X hs (ix2 u q) = X (ix2 u k) :=
  slice2_axis1_apply o X hs u q k hk

theorem lhs_coord0 (j : S1024x1024.Idx) (kk : dot_S3x1024_S3x1024_S1024x1024_0_0_1_1_n_n.contr.Idx) :
    (dot_S3x1024_S3x1024_S1024x1024_0_0_1_1_n_n.lhsIdx j kk 0).val = (kk ⟨0, by decide⟩).val :=
  dot_S3x1024_S3x1024_S1024x1024_0_0_1_1_n_n.lhsIdx_val_of_single rfl j kk
theorem lhs_coord1 (j : S1024x1024.Idx) (kk : dot_S3x1024_S3x1024_S1024x1024_0_0_1_1_n_n.contr.Idx) :
    (dot_S3x1024_S3x1024_S1024x1024_0_0_1_1_n_n.lhsIdx j kk 1).val = (j 0).val := by
  unfold DotDims.lhsIdx
  rw [dif_neg (show ¬(1 : Fin S3x1024.rank) ∈ dot_S3x1024_S3x1024_S1024x1024_0_0_1_1_n_n.lhsBatch by decide),
    dif_pos (show (1 : Fin S3x1024.rank) ∈ dot_S3x1024_S3x1024_S1024x1024_0_0_1_1_n_n.lhsNonContracting by decide)]
  rfl
theorem rhs_coord0 (j : S1024x1024.Idx) (kk : dot_S3x1024_S3x1024_S1024x1024_0_0_1_1_n_n.contr.Idx) :
    (dot_S3x1024_S3x1024_S1024x1024_0_0_1_1_n_n.rhsIdx j kk 0).val = (kk ⟨0, by decide⟩).val :=
  dot_S3x1024_S3x1024_S1024x1024_0_0_1_1_n_n.rhsIdx_val_of_single rfl j kk
theorem rhs_coord1 (j : S1024x1024.Idx) (kk : dot_S3x1024_S3x1024_S1024x1024_0_0_1_1_n_n.contr.Idx) :
    (dot_S3x1024_S3x1024_S1024x1024_0_0_1_1_n_n.rhsIdx j kk 1).val = (j 1).val := by
  unfold DotDims.rhsIdx
  rw [dif_neg (show ¬(1 : Fin S3x1024.rank) ∈ dot_S3x1024_S3x1024_S1024x1024_0_0_1_1_n_n.rhsBatch by decide),
    dif_pos (show (1 : Fin S3x1024.rank) ∈ dot_S3x1024_S3x1024_S1024x1024_0_0_1_1_n_n.rhsNonContracting by decide)]
  rfl

/-- The product of two blocks of points, contracted over the three coordinates. -/
theorem gram_apply (srcT dstT : FVec Ideal S3x1024 .f32) (q k : Fin 1024) :
    matmul dot_S3x1024_S3x1024_S1024x1024_0_0_1_1_n_n (some .fp32) srcT dstT (constant S1024x1024 .f32 0x00000000#32) (ix2 q k)
      = ∑ c : Fin 3, srcT (ix2 c q) * dstT (ix2 c k) := by
  simp only [matmul]
  rw [Ideal.matmul_constant_zero_apply,
    ← Equiv.sum_comp (contrEquiv1 dot_S3x1024_S3x1024_S1024x1024_0_0_1_1_n_n 3 rfl rfl).symm]
  refine Finset.sum_congr rfl fun c _ => ?_
  have hc := contrEquiv1_symm_val dot_S3x1024_S3x1024_S1024x1024_0_0_1_1_n_n 3 rfl rfl c
  have el : dot_S3x1024_S3x1024_S1024x1024_0_0_1_1_n_n.lhsIdx (ix2 q k)
      ((contrEquiv1 dot_S3x1024_S3x1024_S1024x1024_0_0_1_1_n_n 3 rfl rfl).symm c) = ix2 c q :=
    funext fun a => Fin.ext (by
      match a with
      | ⟨0, _⟩ => exact (lhs_coord0 _ _).trans hc
      | ⟨1, _⟩ => exact lhs_coord1 _ _)
  have er : dot_S3x1024_S3x1024_S1024x1024_0_0_1_1_n_n.rhsIdx (ix2 q k)
      ((contrEquiv1 dot_S3x1024_S3x1024_S1024x1024_0_0_1_1_n_n 3 rfl rfl).symm c) = ix2 c k :=
    funext fun a => Fin.ext (by
      match a with
      | ⟨0, _⟩ => exact (rhs_coord0 _ _).trans hc
      | ⟨1, _⟩ => exact rhs_coord1 _ _)
  rw [el, er]

theorem tile_apply (srcT dstT : FVec Ideal S3x1024 .f32) (s2c : FVec Ideal S1024x1 .f32) (d2r : FVec Ideal S1x1024 .f32)
    (q k : Fin 1024) :
    tile srcT dstT s2c d2r (ix2 q k)
      = max (s2c (ix2 q (0 : Fin 1)) + d2r (ix2 (0 : Fin 1) k)
              - Cert.Chamfer.two * ∑ c : Fin 3, srcT (ix2 c q) * dstT (ix2 c k)) 0 := by
  unfold tile
  rw [maximumf_apply, subf_apply, addf_apply, mulf_apply, broadcast_apply, broadcast_apply,
    broadcastTo_a1_ab_apply _ broadcasts_S1024x1_S1024x1024 q k,
    broadcastTo_1b_ab_apply _ broadcasts_S1x1024_S1024x1024 q k, gram_apply]
  show max (_ - Ideal.ofBits .f32 0x40000000#32 * _) (Ideal.ofBits .f32 0x00000000#32) = _
  rw [Ideal.ofBits_zero_f32]

theorem rmin_apply (D : FVec Ideal S1024x1024 .f32) (q : Fin 1024) (u : Fin 1) :
    rmin D (ix2 q u) = Finset.univ.fold min ⊤ fun k : Fin 1024 => D (ix2 q k) := by
  unfold rmin
  refine (shapeCast_a_a1_apply _ shapeCasts_S1024_S1024x1 q u).trans ?_
  refine (multiReduction_minimumf_eq_fold D 0x7F800000#32 reduces_S1024x1024_S1024 (.inl rfl) rfl (ix1 q)).trans ?_
  rw [reduces_S1024x1024_S1024.fold_filter_drop_single]
  show Finset.univ.fold min (Ideal.ofBits .f32 0x7F800000#32) _ = _
  rw [ofBits_inf]
  refine congrArg (fun f => Finset.univ.fold min ⊤ f) (funext fun (k : Fin 1024) => ?_)
  have e : reduces_S1024x1024_S1024.lift (ix1 q) k = ix2 q k :=
    funext fun a => Fin.ext (by match a with | ⟨0, _⟩ => rfl | ⟨1, _⟩ => rfl)
  exact congrArg D e

theorem cmin_apply (D : FVec Ideal S1024x1024 .f32) (u : Fin 1) (k : Fin 1024) :
    cmin D (ix2 u k) = Finset.univ.fold min ⊤ fun q : Fin 1024 => D (ix2 q k) := by
  unfold cmin
  refine (shapeCast_a_1a_apply _ shapeCasts_S1024_S1x1024 u k).trans ?_
  refine (multiReduction_minimumf_eq_fold D 0x7F800000#32 reduces_S1024x1024_S1024_2 (.inl rfl) rfl (ix1 k)).trans ?_
  rw [reduces_S1024x1024_S1024_2.fold_filter_drop_single]
  show Finset.univ.fold min (Ideal.ofBits .f32 0x7F800000#32) _ = _
  rw [ofBits_inf]
  refine congrArg (fun f => Finset.univ.fold min ⊤ f) (funext fun (q : Fin 1024) => ?_)
  have e : reduces_S1024x1024_S1024_2.lift (ix1 k) q = ix2 q k :=
    funext fun a => Fin.ext (by match a with | ⟨0, _⟩ => rfl | ⟨1, _⟩ => rfl)
  exact congrArg D e

theorem colSum_apply (X : FVec Ideal S1024x1 .f32) (u v : Fin 1) :
    colSum X (ix2 u v) = ∑ q : Fin 1024, X (ix2 q (0 : Fin 1)) := by
  unfold colSum
  refine (shapeCast_a_1a_apply _ shapeCasts_S1_S1x1 u v).trans ?_
  refine (Ideal.multiReduction_add_single _ 0x00000000#32 reduces_S1024x1_S1 (.inl rfl) rfl (ix1 v)).trans ?_
  refine Finset.sum_congr rfl fun (q : Fin 1024) _ => ?_
  have e : reduces_S1024x1_S1.lift (ix1 v) q = ix2 q v :=
    funext fun a => Fin.ext (by match a with | ⟨0, _⟩ => rfl | ⟨1, _⟩ => rfl)
  rw [e]
  refine (shapeCast_a_a1_apply _ shapeCasts_S1024_S1024x1 q v).trans ?_
  refine (Ideal.multiReduction_add_single X 0x00000000#32 reduces_S1024x1_S1024 (.inl rfl) rfl (ix1 q)).trans ?_
  show (∑ k : Fin 1, X (reduces_S1024x1_S1024.lift (ix1 q) k)) = _
  rw [Fin.sum_univ_one]
  refine congrArg X (funext fun a => Fin.ext (by match a with | ⟨0, _⟩ => rfl | ⟨1, _⟩ => rfl))

theorem rowSum_apply (X : FVec Ideal S1x4096 .f32) (u v : Fin 1) :
    rowSum X (ix2 u v) = ∑ k : Fin 4096, X (ix2 (0 : Fin 1) k) := by
  unfold rowSum
  refine (shapeCast_a_1a_apply _ shapeCasts_S1_S1x1 u v).trans ?_
  refine (Ideal.multiReduction_add_single _ 0x00000000#32 reduces_S1x1_S1 (.inl rfl) rfl (ix1 v)).trans ?_
  show (∑ k : Fin 1, shapeCast S1x1 _ shapeCasts_S1_S1x1 (reduces_S1x1_S1.lift (ix1 v) k)) = _
  rw [Fin.sum_univ_one]
  have e : reduces_S1x1_S1.lift (ix1 v) (0 : Fin 1) = ix2 (0 : Fin 1) v :=
    funext fun a => Fin.ext (by match a with | ⟨0, _⟩ => rfl | ⟨1, _⟩ => rfl)
  rw [e]
  refine (shapeCast_a_1a_apply _ shapeCasts_S1_S1x1 (0 : Fin 1) v).trans ?_
  refine (Ideal.multiReduction_add_single X 0x00000000#32 reduces_S1x4096_S1 (.inl rfl) rfl (ix1 v)).trans ?_
  refine Finset.sum_congr rfl fun (k : Fin 4096) _ => ?_
  refine congrArg X (funext fun a => Fin.ext (by
    match a with
    | ⟨0, _⟩ => show (v : ℕ) = (0 : ℕ); omega
    | ⟨1, _⟩ => rfl))

end Cert.KernelIdeal.BlockOps

end
-- ==== Proof.BlockBody.lean ====
/-
  One grid point's work as pure functions of the two coordinate-major clouds `src`, `dst : [3, 4096]`, and the
  value of each over the extended reals in terms of the points p(s) = src(·, s), q(t) = dst(·, t).

  The 4096 × 4096 matrix of clamped squared distances is never formed: it is visited in sixteen 1024 × 1024 tiles,
    Dij i j (q, k) = dist p q (1024·i + q) (1024·j + k).
  For row block i the four tiles' row minima are folded, from +∞, into the column
    Irow i (q) = rowMin p q (1024·i + q)                                     (rowMin_chain),
  and for column block j each tile updates a running row of column minima,
    Jst prev (Dij i j) (k) = min (prev k) (min_q dist p q (1024·i + q) (1024·j + k)),
  which after the four row blocks, started from +∞, is colMin p q (1024·j + k)    (colMin_chain).
  The result is ((((0 + Σ Irow 0) + Σ Irow 1) + Σ Irow 2) + Σ Irow 3 + Σ (column minima)) / 4096 = batchLoss p q.
-/
import proofs.«158294_j79070347920144_2_alg».proof.Proof.BlockOps

noncomputable section

open scoped BigOperators

namespace Cert.KernelIdeal.BlockBody

open Cert.KernelIdeal Cert.KernelIdeal.BlockOps Idealize.ShloMosaic Idealize.ShloMosaic.ValueIdx
open Facts₀ Facts

/-- The slice facts of block `i` of a cloud and of a row of squared norms. -/
theorem sl3 : (i : Fin 4) → S3x4096.Slices ![0, i.val * 1024] S3x1024
  | 0 => slices_S3x4096_o0_0_S3x1024
  | 1 => slices_S3x4096_o0_1024_S3x1024
  | 2 => slices_S3x4096_o0_2048_S3x1024
  | 3 => slices_S3x4096_o0_3072_S3x1024
theorem sl1 : (i : Fin 4) → S1x4096.Slices ![0, i.val * 1024] S1x1024
  | 0 => slices_S1x4096_o0_0_S1x1024
  | 1 => slices_S1x4096_o0_1024_S1x1024
  | 2 => slices_S1x4096_o0_2048_S1x1024
  | 3 => slices_S1x4096_o0_3072_S1x1024

section Defs

variable {F : FTy → Type} [FloatOps F] [Named F]

/-- Tile (i, j) of the clamped squared distances. -/
def Dij (src dst : FVec F S3x4096 .f32) (i j : Fin 4) : FVec F S1024x1024 .f32 :=
  tile (extractStridedSlice S3x1024 ![0, i.val * 1024] src (sl3 i))
       (extractStridedSlice S3x1024 ![0, j.val * 1024] dst (sl3 j))
       (colOf ![0, i.val * 1024] (sl1 i) (sqRow src))
       (extractStridedSlice S1x1024 ![0, j.val * 1024] (sqRow dst) (sl1 j))

/-- The column of +∞ a running row minimum starts from. -/
def bigCol : FVec F S1024x1 .f32 := broadcast S1024x1 (Named.named κ "pos_big" 0x7F61B1E6#32)

/-- The row minima of row block `i`: the running minimum, from +∞, over the four column blocks. -/
def Irow (src dst : FVec F S3x4096 .f32) (i : Fin 4) : FVec F S1024x1 .f32 :=
  minimumf (minimumf (minimumf (minimumf bigCol (rmin (Dij src dst i 0))) (rmin (Dij src dst i 1)))
    (rmin (Dij src dst i 2))) (rmin (Dij src dst i 3))

/-- One update of a block of the running column minima by a tile. -/
def Jst (prev : Vec F S1x1024 .f32) (D : FVec F S1024x1024 .f32) : FVec F S1x1024 .f32 :=
  shapeCast S1x1024 (minimumf prev (cmin D)) shapeCasts_S1x1024_S1x1024

/-- The grid point's result from the four columns of row minima and the final row `scr` of column minima. -/
def total (src dst : FVec F S3x4096 .f32) (scr : Vec F S1x4096 .f32) : FVec F S1x1x1 .f32 :=
  shapeCast S1x1x1
    (divf
      (addf
        (addf (addf (addf (addf (broadcast S1x1 (Scalar.ofBits .f32 0x00000000#32)) (colSum (Irow src dst 0)))
          (colSum (Irow src dst 1))) (colSum (Irow src dst 2))) (colSum (Irow src dst 3)))
        (rowSum scr))
      (broadcast S1x1 (Scalar.ofBits .f32 0x45800000#32)))
    shapeCasts_S1x1_S1x1x1

end Defs

/-! ## Values over the extended reals -/

open Cert.Chamfer (Pts rowMin colMin at4 batchLoss)

/-- The points of a coordinate-major cloud. -/
def pts (X : FVec Ideal S3x4096 .f32) : Pts := fun s c => X (ix2 c s)

theorem at4_val (i : Fin 4) (r : Fin 1024) : (at4 i r).val = i.val * 1024 + r.val := rfl

theorem Dij_apply (src dst : FVec Ideal S3x4096 .f32) (i j : Fin 4) (q k : Fin 1024) :
    Dij src dst i j (ix2 q k) = Cert.Chamfer.dist (pts src) (pts dst) (at4 i q) (at4 j k) := by
  unfold Dij
  rw [tile_apply, colOf_apply (i.val * 1024) (sl1 i) (sqRow src) q 0 (at4 i q) (at4_val i q),
    rowOf_apply (j.val * 1024) (sl1 j) (sqRow dst) 0 k (at4 j k) (at4_val j k), sqRow_apply, sqRow_apply]
  have hg : (∑ c : Fin 3, extractStridedSlice S3x1024 ![0, i.val * 1024] src (sl3 i) (ix2 c q)
        * extractStridedSlice S3x1024 ![0, j.val * 1024] dst (sl3 j) (ix2 c k))
      = ∑ c : Fin 3, src (ix2 c (at4 i q)) * dst (ix2 c (at4 j k)) :=
    Finset.sum_congr rfl fun c _ => by
      rw [tileOf_apply (i.val * 1024) (sl3 i) src c q (at4 i q) (at4_val i q),
        tileOf_apply (j.val * 1024) (sl3 j) dst c k (at4 j k) (at4_val j k)]
  rw [hg]
  rfl

/-- The start value of the running minima is +∞. -/
theorem big_eq : Named.named (F := Ideal) κ "pos_big" (φ := .f32) 0x7F61B1E6#32 = (⊤ : EReal) :=
  IdealRules.named_const.ideal_named_scalar _ _ _ _ rfl

theorem Irow_apply (src dst : FVec Ideal S3x4096 .f32) (i : Fin 4) (q : Fin 1024) (u : Fin 1) :
    Irow src dst i (ix2 q u) = rowMin (pts src) (pts dst) (at4 i q) := by
  unfold Irow bigCol
  rw [minimumf_apply, minimumf_apply, minimumf_apply, minimumf_apply, broadcast_apply, big_eq,
    rmin_apply, rmin_apply, rmin_apply, rmin_apply]
  simp only [Dij_apply]
  exact Cert.Chamfer.rowMin_chain (pts src) (pts dst) (at4 i q)

theorem Jst_apply (prev : Vec Ideal S1x1024 .f32) (src dst : FVec Ideal S3x4096 .f32) (i j : Fin 4) (u : Fin 1) (k : Fin 1024) :
    Jst prev (Dij src dst i j) (ix2 u k)
      = min (prev (ix2 u k)) (Finset.univ.fold min ⊤ fun q : Fin 1024 => Cert.Chamfer.dist (pts src) (pts dst) (at4 i q) (at4 j k)) := by
  unfold Jst
  rw [shapeCast_self, minimumf_apply, cmin_apply]
  simp only [Dij_apply]

/-- The grid point's result, given that the final row of column minima holds `colMin`. -/
theorem total_apply (src dst : FVec Ideal S3x4096 .f32) (scr : Vec Ideal S1x4096 .f32)
    (hscr : ∀ t : Fin 4096, scr (ix2 (0 : Fin 1) t) = colMin (pts src) (pts dst) t) (y : S1x1x1.Idx) :
    total src dst scr y = batchLoss (pts src) (pts dst) := by
  obtain ⟨a, b, e, rfl⟩ : ∃ (a b e : Fin 1), y = ix3 a b e := ⟨y 0, y 1, y 2, eq_ix3 y⟩
  unfold total
  have hcast : ∀ (X : FVec Ideal S1x1 .f32), shapeCast S1x1x1 X shapeCasts_S1x1_S1x1x1 (ix3 a b e) = X (ix2 b e) :=
    fun X => shapeCast_ab_1ab_apply X shapeCasts_S1x1_S1x1x1 a b e
  rw [hcast, divf_apply, addf_apply, addf_apply, addf_apply, addf_apply, addf_apply, broadcast_apply, broadcast_apply,
    colSum_apply, colSum_apply, colSum_apply, colSum_apply, rowSum_apply]
  simp only [Irow_apply, hscr]
  show Ideal.div (((((Ideal.ofBits .f32 0x00000000#32 + _) + _) + _) + _) + _) (Ideal.ofBits .f32 0x45800000#32) = _
  rw [Ideal.ofBits_zero_f32]
  exact Cert.Chamfer.batchLoss_blocks (pts src) (pts dst)

end Cert.KernelIdeal.BlockBody

end
-- ==== Proof.BlockScratch.lean ====
/-
  A row of 4096 entries written block by block.  The row is the contents a list of stores leaves (last store first);
  each store covers one block of 1024 consecutive entries starting at a multiple `o` of 1024, or the whole row.
  Entry `j` of what the stores leave is the payload of the first store in the list whose block holds `j`:
    canon_hit    the first store's block holds `j = o + k`: the entry is that store's payload at `k`;
    canon_miss   the first store's block does not hold `j`: the entry is what the later-listed (earlier) stores left;
    canon_whole  a store of the whole row: the entry is the payload at `j`;
    readCov_at   a load of the block at `o` reads, at `k`, entry `o + k` of what the stores left;
    readCov_whole a load of the whole row reads every entry.
-/
import proofs.«158294_j79070347920144_2_alg».proof.KernelIdeal
import Idealize.ShloMosaic.Lib.Pipeline.Value
import Idealize.ShloMosaic.Lib.ValueIdx

noncomputable section

namespace Cert.KernelIdeal.BlockScratch

open Cert.KernelIdeal Idealize.ShloMosaic Idealize.ShloMosaic.ValueIdx

variable {Val : EltTy → Type} [∀ e, Nonempty (Val e)]

/-- The block of 1024 entries starting at `o`. -/
abbrev blk (o : Nat) (inb : ∀ a, (![0, o] : Fin 2 → Nat) a + S1x1024.size a ≤ S1x4096.size a) : Rect S1x4096 :=
  Rect.unit ![0, o] S1x1024.size inb

/-- Place `k` of the block at `o` is entry `o + k` of the row. -/
theorem blk_emb (o : Nat) (inb : ∀ a, (![0, o] : Fin 2 → Nat) a + S1x1024.size a ≤ S1x4096.size a)
    (u : Fin 1) (k : Fin 1024) (j : Fin 4096) (hj : j.val = o + k.val) :
    (blk o inb).emb (ix2 u k) = ix2 (0 : Fin 1) j := by
  funext a
  apply Fin.ext
  match a with
  | ⟨0, _⟩ => show 0 + 1 * (u : ℕ) = 0; omega
  | ⟨1, _⟩ => show o + 1 * (k : ℕ) = j.val; omega

theorem canon_hit (o : Nat) (inb : ∀ a, (![0, o] : Fin 2 → Nat) a + S1x1024.size a ≤ S1x4096.size a)
    (w : (blk o inb).shape.Idx → Val .f32) (L : List (View.Piece Val S1x4096 .f32))
    (k : Fin 1024) (j : Fin 4096) (hj : j.val = o + k.val) :
    View.canon (⟨blk o inb, w⟩ :: L) (ix2 (0 : Fin 1) j) = w (ix2 (0 : Fin 1) k) := by
  rw [← blk_emb o inb 0 k j hj]
  exact View.canon_cons_emb (blk o inb) w L _

theorem canon_miss (o : Nat) (inb : ∀ a, (![0, o] : Fin 2 → Nat) a + S1x1024.size a ≤ S1x4096.size a)
    (w : (blk o inb).shape.Idx → Val .f32) (L : List (View.Piece Val S1x4096 .f32))
    (j : Fin 4096) (hj : j.val < o ∨ o + 1024 ≤ j.val) :
    View.canon (⟨blk o inb, w⟩ :: L) (ix2 (0 : Fin 1) j) = View.canon L (ix2 (0 : Fin 1) j) := by
  refine View.canon_cons_of_not_mem _ L ?_
  show ix2 (0 : Fin 1) j ∉ (Rect.unit (s := S1x4096) ![0, o] S1x1024.size inb).set
  rw [Rect.mem_set_unit]
  intro h
  have h1 : o ≤ j.val ∧ j.val < o + 1024 := h (1 : Fin 2)
  omega

theorem canon_whole (inb : ∀ a, (![0, 0] : Fin 2 → Nat) a + S1x4096.size a ≤ S1x4096.size a)
    (w : S1x4096.Idx → Val .f32) (L : List (View.Piece Val S1x4096 .f32)) :
    View.canon (⟨Rect.unit ![0, 0] S1x4096.size inb, w⟩ :: L) = w :=
  View.canon_cons_unit_zero (funext fun a => by match a with | ⟨0, _⟩ => rfl | ⟨1, _⟩ => rfl) inb w L

theorem readCov_at {sig : RefSig} {κ : Kind} {sp : Space} (v : View sig κ sp S1x4096 .f32)
    (L : List (View.Piece Val S1x4096 .f32)) (o : Nat)
    (inb : ∀ a, (![0, o] : Fin 2 → Nat) a + S1x1024.size a ≤ S1x4096.size a)
    (u : Fin 1) (k : Fin 1024) (j : Fin 4096) (hj : j.val = o + k.val) :
    v.readCov L (blk o inb).toLoadRect (ix2 u k) = View.canon L (ix2 (0 : Fin 1) j) := by
  rw [View.readCov_eq_canon']
  exact congrArg (View.canon L) (blk_emb o inb u k j hj)

theorem readCov_whole {sig : RefSig} {κ : Kind} {sp : Space} (v : View sig κ sp S1x4096 .f32)
    (L : List (View.Piece Val S1x4096 .f32))
    (inb : ∀ a, (![0, 0] : Fin 2 → Nat) a + S1x4096.size a ≤ S1x4096.size a) :
    v.readCov L (Rect.unit ![0, 0] S1x4096.size inb).toLoadRect = View.canon L := by
  rw [View.readCov_eq_canon']
  exact View.ld_unit_zero (funext fun a => by match a with | ⟨0, _⟩ => rfl | ⟨1, _⟩ => rfl) inb (View.canon L)

end Cert.KernelIdeal.BlockScratch

end
-- ==== Proof.BlockRun.lean ====
/-
  The generated run of the kernel body, restated through the pure functions of BlockBody.lean, and its values.

  The run names its intermediate values.  Each name is, by unfolding alone, one of BlockBody's functions applied to
  earlier names: the two clouds `src`, `dst` are the two input blocks with their unit axis dropped; the scratch row of
  running column minima is a list of seventeen stores — one fill of the whole row with +∞, then, for row block
  i = 0..3 and column block j = 0..3 in that order, a store to block j of `Jst (what block j held) (Dij src dst i j)`;
  and the body's one output element is `total src dst (the scratch row read back whole)`.
  What block j holds when row block i updates it is found by walking the list of stores back to the last store to block j
  (three stores to other blocks lie in between; for i = 0 the walk ends at the fill): so after row blocks 0..i it holds
  min (... min (min +∞ c₀) c₁ ...) cᵢ with cᵢ(k) = min over the rows of block i of dist, and after all four the column
  minimum itself (`colMin_chain`).
-/
import proofs.«158294_j79070347920144_2_alg».proof.Proof.Gen.KernelIdeal.Frame
import proofs.«158294_j79070347920144_2_alg».proof.Proof.BlockBody
import proofs.«158294_j79070347920144_2_alg».proof.Proof.BlockScratch
import Idealize.ShloMosaic.Lib.Pipeline.Value

noncomputable section

namespace Cert.KernelIdeal.BlockRun

open Cert.KernelIdeal Cert.KernelIdeal.Gen Cert.KernelIdeal.BlockOps Cert.KernelIdeal.BlockBody
open Idealize.ShloMosaic Idealize.ShloMosaic.ValueIdx
open Cert.Chamfer (Pts colMin at4)
open Facts₀ Facts

/-! ## The running column minima, as numbers -/

/-- The minimum of column `at4 j k` over row block `i`. -/
def cc (p q : Pts) (i j : Fin 4) (k : Fin 1024) : EReal :=
  Finset.univ.fold min ⊤ fun r : Fin 1024 => Cert.Chamfer.dist p q (at4 i r) (at4 j k)
/-- Block j of the running column minima after row blocks 0, 0..1, 0..2, 0..3. -/
def A1 (p q : Pts) (j : Fin 4) (k : Fin 1024) : EReal := min ⊤ (cc p q 0 j k)
def A2 (p q : Pts) (j : Fin 4) (k : Fin 1024) : EReal := min (A1 p q j k) (cc p q 1 j k)
def A3 (p q : Pts) (j : Fin 4) (k : Fin 1024) : EReal := min (A2 p q j k) (cc p q 2 j k)
def A4 (p q : Pts) (j : Fin 4) (k : Fin 1024) : EReal := min (A3 p q j k) (cc p q 3 j k)
/-- Before any row block the row holds +∞. -/
def A0 (p q : Pts) (j : Fin 4) (k : Fin 1024) : EReal := ⊤

theorem A4_eq (p q : Pts) (j : Fin 4) (k : Fin 1024) : A4 p q j k = colMin p q (at4 j k) :=
  Cert.Chamfer.colMin_chain p q (at4 j k)

theorem at4_0 (k : Fin 1024) : (at4 0 k).val = 0 + k.val := by show 0 * 1024 + k.val = _; omega
theorem at4_1 (k : Fin 1024) : (at4 1 k).val = 1024 + k.val := by show 1 * 1024 + k.val = _; omega
theorem at4_2 (k : Fin 1024) : (at4 2 k).val = 2048 + k.val := by show 2 * 1024 + k.val = _; omega
theorem at4_3 (k : Fin 1024) : (at4 3 k).val = 3072 + k.val := by show 3 * 1024 + k.val = _; omega

/-! ## The run's names are BlockBody's functions -/

section Names

variable {F : FTy → Type} [FloatOps F] [Named F]
variable (c : Dev nD) (a1 : Memref sig .tc .vmem S1x3x4096 .f32) (h1 : a1.IsWhole)
  (a2 : Memref sig .tc .vmem S1x3x4096 .f32) (h2 : a2.IsWhole) (a4 : Memref sig .tc .vmem S1x4096 .f32)
  (x0 x1 : Vec F S1x3x4096 .f32)

/-- The body's output element from the two clouds and the scratch row read back. -/
theorem out_names :
    k0_pay1 (kernelRun0_A.sl.r_24 c a1 h1 a2 h2 a4 x0 x1) = total (kernelRun0_A.sl.r c a1 h1 x0) (kernelRun0_A.sl.r_1 c a2 h2 x1) (kernelRun0_A.sl.v387 c a1 h1 a2 h2 a4 x0 x1) := rfl

/-- The first store fills the scratch row. -/
theorem hs1 : (kernelRun0_A.sl.HS0_1 : List (View.Piece (Elt F) S1x4096 .f32))
    = [⟨Rect.unit ![0, 0] S1x4096.size Facts₀.inb_S1x4096_S1x4096_0_0, k0_pay2⟩] := rfl

/-- Store 2: row block 0 updates column block 0. -/
theorem hs2 : kernelRun0_A.sl.HS0_2 c a1 h1 a2 h2 a4 x0 x1
    = ⟨BlockScratch.blk 0 Facts₀.inb_S1x4096_S1x1024_0_0, Jst (kernelRun0_A.sl.v35 c a4) (Dij (kernelRun0_A.sl.r c a1 h1 x0) (kernelRun0_A.sl.r_1 c a2 h2 x1) 0 0)⟩ :: kernelRun0_A.sl.HS0_1 := rfl

/-- Store 3: row block 0 updates column block 1. -/
theorem hs3 : kernelRun0_A.sl.HS0_3 c a1 h1 a2 h2 a4 x0 x1
    = ⟨BlockScratch.blk 1024 Facts₀.inb_S1x4096_S1x1024_0_1024, Jst (kernelRun0_A.sl.v56 c a1 h1 a2 h2 a4 x0 x1) (Dij (kernelRun0_A.sl.r c a1 h1 x0) (kernelRun0_A.sl.r_1 c a2 h2 x1) 0 1)⟩ :: kernelRun0_A.sl.HS0_2 c a1 h1 a2 h2 a4 x0 x1 := rfl

/-- Store 4: row block 0 updates column block 2. -/
theorem hs4 : kernelRun0_A.sl.HS0_4 c a1 h1 a2 h2 a4 x0 x1
    = ⟨BlockScratch.blk 2048 Facts₀.inb_S1x4096_S1x1024_0_2048, Jst (kernelRun0_A.sl.v77 c a1 h1 a2 h2 a4 x0 x1) (Dij (kernelRun0_A.sl.r c a1 h1 x0) (kernelRun0_A.sl.r_1 c a2 h2 x1) 0 2)⟩ :: kernelRun0_A.sl.HS0_3 c a1 h1 a2 h2 a4 x0 x1 := rfl

/-- Store 5: row block 0 updates column block 3. -/
theorem hs5 : kernelRun0_A.sl.HS0_5 c a1 h1 a2 h2 a4 x0 x1
    = ⟨BlockScratch.blk 3072 Facts₀.inb_S1x4096_S1x1024_0_3072, Jst (kernelRun0_A.sl.v98 c a1 h1 a2 h2 a4 x0 x1) (Dij (kernelRun0_A.sl.r c a1 h1 x0) (kernelRun0_A.sl.r_1 c a2 h2 x1) 0 3)⟩ :: kernelRun0_A.sl.HS0_4 c a1 h1 a2 h2 a4 x0 x1 := rfl

/-- Store 6: row block 1 updates column block 0. -/
theorem hs6 : kernelRun0_A.sl.HS0_6 c a1 h1 a2 h2 a4 x0 x1
    = ⟨BlockScratch.blk 0 Facts₀.inb_S1x4096_S1x1024_0_0, Jst (kernelRun0_A.sl.v128 c a1 h1 a2 h2 a4 x0 x1) (Dij (kernelRun0_A.sl.r c a1 h1 x0) (kernelRun0_A.sl.r_1 c a2 h2 x1) 1 0)⟩ :: kernelRun0_A.sl.HS0_5 c a1 h1 a2 h2 a4 x0 x1 := rfl

/-- Store 7: row block 1 updates column block 1. -/
theorem hs7 : kernelRun0_A.sl.HS0_7 c a1 h1 a2 h2 a4 x0 x1
    = ⟨BlockScratch.blk 1024 Facts₀.inb_S1x4096_S1x1024_0_1024, Jst (kernelRun0_A.sl.v149 c a1 h1 a2 h2 a4 x0 x1) (Dij (kernelRun0_A.sl.r c a1 h1 x0) (kernelRun0_A.sl.r_1 c a2 h2 x1) 1 1)⟩ :: kernelRun0_A.sl.HS0_6 c a1 h1 a2 h2 a4 x0 x1 := rfl

/-- Store 8: row block 1 updates column block 2. -/
theorem hs8 : kernelRun0_A.sl.HS0_8 c a1 h1 a2 h2 a4 x0 x1
    = ⟨BlockScratch.blk 2048 Facts₀.inb_S1x4096_S1x1024_0_2048, Jst (kernelRun0_A.sl.v170 c a1 h1 a2 h2 a4 x0 x1) (Dij (kernelRun0_A.sl.r c a1 h1 x0) (kernelRun0_A.sl.r_1 c a2 h2 x1) 1 2)⟩ :: kernelRun0_A.sl.HS0_7 c a1 h1 a2 h2 a4 x0 x1 := rfl

/-- Store 9: row block 1 updates column block 3. -/
theorem hs9 : kernelRun0_A.sl.HS0_9 c a1 h1 a2 h2 a4 x0 x1
    = ⟨BlockScratch.blk 3072 Facts₀.inb_S1x4096_S1x1024_0_3072, Jst (kernelRun0_A.sl.v191 c a1 h1 a2 h2 a4 x0 x1) (Dij (kernelRun0_A.sl.r c a1 h1 x0) (kernelRun0_A.sl.r_1 c a2 h2 x1) 1 3)⟩ :: kernelRun0_A.sl.HS0_8 c a1 h1 a2 h2 a4 x0 x1 := rfl

/-- Store 10: row block 2 updates column block 0. -/
theorem hs10 : kernelRun0_A.sl.HS0_10 c a1 h1 a2 h2 a4 x0 x1
    = ⟨BlockScratch.blk 0 Facts₀.inb_S1x4096_S1x1024_0_0, Jst (kernelRun0_A.sl.v221 c a1 h1 a2 h2 a4 x0 x1) (Dij (kernelRun0_A.sl.r c a1 h1 x0) (kernelRun0_A.sl.r_1 c a2 h2 x1) 2 0)⟩ :: kernelRun0_A.sl.HS0_9 c a1 h1 a2 h2 a4 x0 x1 := rfl

/-- Store 11: row block 2 updates column block 1. -/
theorem hs11 : kernelRun0_A.sl.HS0_11 c a1 h1 a2 h2 a4 x0 x1
    = ⟨BlockScratch.blk 1024 Facts₀.inb_S1x4096_S1x1024_0_1024, Jst (kernelRun0_A.sl.v242 c a1 h1 a2 h2 a4 x0 x1) (Dij (kernelRun0_A.sl.r c a1 h1 x0) (kernelRun0_A.sl.r_1 c a2 h2 x1) 2 1)⟩ :: kernelRun0_A.sl.HS0_10 c a1 h1 a2 h2 a4 x0 x1 := rfl

/-- Store 12: row block 2 updates column block 2. -/
theorem hs12 : kernelRun0_A.sl.HS0_12 c a1 h1 a2 h2 a4 x0 x1
    = ⟨BlockScratch.blk 2048 Facts₀.inb_S1x4096_S1x1024_0_2048, Jst (kernelRun0_A.sl.v263 c a1 h1 a2 h2 a4 x0 x1) (Dij (kernelRun0_A.sl.r c a1 h1 x0) (kernelRun0_A.sl.r_1 c a2 h2 x1) 2 2)⟩ :: kernelRun0_A.sl.HS0_11 c a1 h1 a2 h2 a4 x0 x1 := rfl

/-- Store 13: row block 2 updates column block 3. -/
theorem hs13 : kernelRun0_A.sl.HS0_13 c a1 h1 a2 h2 a4 x0 x1
    = ⟨BlockScratch.blk 3072 Facts₀.inb_S1x4096_S1x1024_0_3072, Jst (kernelRun0_A.sl.v284 c a1 h1 a2 h2 a4 x0 x1) (Dij (kernelRun0_A.sl.r c a1 h1 x0) (kernelRun0_A.sl.r_1 c a2 h2 x1) 2 3)⟩ :: kernelRun0_A.sl.HS0_12 c a1 h1 a2 h2 a4 x0 x1 := rfl

/-- Store 14: row block 3 updates column block 0. -/
theorem hs14 : kernelRun0_A.sl.HS0_14 c a1 h1 a2 h2 a4 x0 x1
    = ⟨BlockScratch.blk 0 Facts₀.inb_S1x4096_S1x1024_0_0, Jst (kernelRun0_A.sl.v314 c a1 h1 a2 h2 a4 x0 x1) (Dij (kernelRun0_A.sl.r c a1 h1 x0) (kernelRun0_A.sl.r_1 c a2 h2 x1) 3 0)⟩ :: kernelRun0_A.sl.HS0_13 c a1 h1 a2 h2 a4 x0 x1 := rfl

/-- Store 15: row block 3 updates column block 1. -/
theorem hs15 : kernelRun0_A.sl.HS0_15 c a1 h1 a2 h2 a4 x0 x1
    = ⟨BlockScratch.blk 1024 Facts₀.inb_S1x4096_S1x1024_0_1024, Jst (kernelRun0_A.sl.v335 c a1 h1 a2 h2 a4 x0 x1) (Dij (kernelRun0_A.sl.r c a1 h1 x0) (kernelRun0_A.sl.r_1 c a2 h2 x1) 3 1)⟩ :: kernelRun0_A.sl.HS0_14 c a1 h1 a2 h2 a4 x0 x1 := rfl

/-- Store 16: row block 3 updates column block 2. -/
theorem hs16 : kernelRun0_A.sl.HS0_16 c a1 h1 a2 h2 a4 x0 x1
    = ⟨BlockScratch.blk 2048 Facts₀.inb_S1x4096_S1x1024_0_2048, Jst (kernelRun0_A.sl.v356 c a1 h1 a2 h2 a4 x0 x1) (Dij (kernelRun0_A.sl.r c a1 h1 x0) (kernelRun0_A.sl.r_1 c a2 h2 x1) 3 2)⟩ :: kernelRun0_A.sl.HS0_15 c a1 h1 a2 h2 a4 x0 x1 := rfl

/-- Store 17: row block 3 updates column block 3. -/
theorem hs17 : kernelRun0_A.sl.HS0_17 c a1 h1 a2 h2 a4 x0 x1
    = ⟨BlockScratch.blk 3072 Facts₀.inb_S1x4096_S1x1024_0_3072, Jst (kernelRun0_A.sl.v377 c a1 h1 a2 h2 a4 x0 x1) (Dij (kernelRun0_A.sl.r c a1 h1 x0) (kernelRun0_A.sl.r_1 c a2 h2 x1) 3 3)⟩ :: kernelRun0_A.sl.HS0_16 c a1 h1 a2 h2 a4 x0 x1 := rfl

end Names

/-! ## Values over the extended reals -/

variable (c : Dev nD) (a1 : Memref sig .tc .vmem S1x3x4096 .f32) (h1 : a1.IsWhole)
  (a2 : Memref sig .tc .vmem S1x3x4096 .f32) (h2 : a2.IsWhole) (a4 : Memref sig .tc .vmem S1x4096 .f32)
  (x0 x1 : Vec Ideal S1x3x4096 .f32)

theorem hz3 : (![0, 0, 0] : Fin 3 → Nat) = fun _ => 0 := funext fun a => by fin_cases a <;> rfl

/-- The first cloud is the first input block without its unit axis. -/
theorem src_apply (k : Fin 3) (s : Fin 4096) : (kernelRun0_A.sl.r c a1 h1 x0) (ix2 k s) = x0 (ix3 (0 : Fin 1) k s) := by
  unfold kernelRun0_A.sl.r k0_pay3
  simp only [View.readAt_eq_ld, h1.read_unread, View.ld_unit_zero (S := S1x3x4096) hz3]
  exact shapeCast_1ab_ab_apply x0 Facts₀.shapeCasts_S1x3x4096_S3x4096 k s

/-- The second cloud is the second input block without its unit axis. -/
theorem dst_apply (k : Fin 3) (t : Fin 4096) : (kernelRun0_A.sl.r_1 c a2 h2 x1) (ix2 k t) = x1 (ix3 (0 : Fin 1) k t) := by
  unfold kernelRun0_A.sl.r_1 k0_pay4
  simp only [View.readAt_eq_ld, h2.read_unread, View.ld_unit_zero (S := S1x3x4096) hz3]
  exact shapeCast_1ab_ab_apply x1 Facts₀.shapeCasts_S1x3x4096_S3x4096 k t

theorem pts_src : pts (kernelRun0_A.sl.r c a1 h1 x0) = fun s k => x0 (ix3 (0 : Fin 1) k s) :=
  funext fun s => funext fun k => src_apply c a1 h1 x0 k s
theorem pts_dst : pts (kernelRun0_A.sl.r_1 c a2 h2 x1) = fun t k => x1 (ix3 (0 : Fin 1) k t) :=
  funext fun t => funext fun k => dst_apply c a2 h2 x1 k t

/-- The fill is +∞ everywhere. -/
theorem fill_apply (y : S1x4096.Idx) : k0_pay2 (F := Ideal) y = (⊤ : EReal) := by
  unfold k0_pay2
  rw [shapeCast_self, broadcast_apply]
  exact big_eq

local notation "P" => pts (kernelRun0_A.sl.r c a1 h1 x0)
local notation "Q" => pts (kernelRun0_A.sl.r_1 c a2 h2 x1)

/-- Column block 0 after row block 0. -/
theorem pay_0_0 (k : Fin 1024) :
    Jst (kernelRun0_A.sl.v35 c a4) (Dij (kernelRun0_A.sl.r c a1 h1 x0) (kernelRun0_A.sl.r_1 c a2 h2 x1) 0 0) (ix2 (0 : Fin 1) k) = A1 P Q 0 k := by
  rw [Jst_apply]
  have hrb : (kernelRun0_A.sl.v35 (F := Ideal) c a4) (ix2 (0 : Fin 1) k) = A0 P Q 0 k := by
    show a4.view.readCov kernelRun0_A.sl.HS0_1 (BlockScratch.blk 0 Facts₀.inb_S1x4096_S1x1024_0_0).toLoadRect (ix2 (0 : Fin 1) k) = _
    rw [BlockScratch.readCov_at _ _ 0 Facts₀.inb_S1x4096_S1x1024_0_0 0 k (at4 0 k) (at4_0 k)]
    rw [hs1, BlockScratch.canon_whole]
    exact fill_apply _
  rw [hrb]
  rfl

/-- Column block 1 after row block 0. -/
theorem pay_0_1 (k : Fin 1024) :
    Jst (kernelRun0_A.sl.v56 c a1 h1 a2 h2 a4 x0 x1) (Dij (kernelRun0_A.sl.r c a1 h1 x0) (kernelRun0_A.sl.r_1 c a2 h2 x1) 0 1) (ix2 (0 : Fin 1) k) = A1 P Q 1 k := by
  rw [Jst_apply]
  have hrb : (kernelRun0_A.sl.v56 c a1 h1 a2 h2 a4 x0 x1) (ix2 (0 : Fin 1) k) = A0 P Q 1 k := by
    show a4.view.readCov (kernelRun0_A.sl.HS0_2 c a1 h1 a2 h2 a4 x0 x1) (BlockScratch.blk 1024 Facts₀.inb_S1x4096_S1x1024_0_1024).toLoadRect (ix2 (0 : Fin 1) k) = _
    rw [BlockScratch.readCov_at _ _ 1024 Facts₀.inb_S1x4096_S1x1024_0_1024 0 k (at4 1 k) (at4_1 k)]
    rw [hs2, BlockScratch.canon_miss 0 Facts₀.inb_S1x4096_S1x1024_0_0 _ _ (at4 1 k) (by rw [at4_1 k]; have := k.isLt; omega)]
    rw [hs1, BlockScratch.canon_whole]
    exact fill_apply _
  rw [hrb]
  rfl

/-- Column block 2 after row block 0. -/
theorem pay_0_2 (k : Fin 1024) :
    Jst (kernelRun0_A.sl.v77 c a1 h1 a2 h2 a4 x0 x1) (Dij (kernelRun0_A.sl.r c a1 h1 x0) (kernelRun0_A.sl.r_1 c a2 h2 x1) 0 2) (ix2 (0 : Fin 1) k) = A1 P Q 2 k := by
  rw [Jst_apply]
  have hrb : (kernelRun0_A.sl.v77 c a1 h1 a2 h2 a4 x0 x1) (ix2 (0 : Fin 1) k) = A0 P Q 2 k := by
    show a4.view.readCov (kernelRun0_A.sl.HS0_3 c a1 h1 a2 h2 a4 x0 x1) (BlockScratch.blk 2048 Facts₀.inb_S1x4096_S1x1024_0_2048).toLoadRect (ix2 (0 : Fin 1) k) = _
    rw [BlockScratch.readCov_at _ _ 2048 Facts₀.inb_S1x4096_S1x1024_0_2048 0 k (at4 2 k) (at4_2 k)]
    rw [hs3, BlockScratch.canon_miss 1024 Facts₀.inb_S1x4096_S1x1024_0_1024 _ _ (at4 2 k) (by rw [at4_2 k]; have := k.isLt; omega)]
    rw [hs2, BlockScratch.canon_miss 0 Facts₀.inb_S1x4096_S1x1024_0_0 _ _ (at4 2 k) (by rw [at4_2 k]; have := k.isLt; omega)]
    rw [hs1, BlockScratch.canon_whole]
    exact fill_apply _
  rw [hrb]
  rfl

/-- Column block 3 after row block 0. -/
theorem pay_0_3 (k : Fin 1024) :
    Jst (kernelRun0_A.sl.v98 c a1 h1 a2 h2 a4 x0 x1) (Dij (kernelRun0_A.sl.r c a1 h1 x0) (kernelRun0_A.sl.r_1 c a2 h2 x1) 0 3) (ix2 (0 : Fin 1) k) = A1 P Q 3 k := by
  rw [Jst_apply]
  have hrb : (kernelRun0_A.sl.v98 c a1 h1 a2 h2 a4 x0 x1) (ix2 (0 : Fin 1) k) = A0 P Q 3 k := by
    show a4.view.readCov (kernelRun0_A.sl.HS0_4 c a1 h1 a2 h2 a4 x0 x1) (BlockScratch.blk 3072 Facts₀.inb_S1x4096_S1x1024_0_3072).toLoadRect (ix2 (0 : Fin 1) k) = _
    rw [BlockScratch.readCov_at _ _ 3072 Facts₀.inb_S1x4096_S1x1024_0_3072 0 k (at4 3 k) (at4_3 k)]
    rw [hs4, BlockScratch.canon_miss 2048 Facts₀.inb_S1x4096_S1x1024_0_2048 _ _ (at4 3 k) (by rw [at4_3 k]; have := k.isLt; omega)]
    rw [hs3, BlockScratch.canon_miss 1024 Facts₀.inb_S1x4096_S1x1024_0_1024 _ _ (at4 3 k) (by rw [at4_3 k]; have := k.isLt; omega)]
    rw [hs2, BlockScratch.canon_miss 0 Facts₀.inb_S1x4096_S1x1024_0_0 _ _ (at4 3 k) (by rw [at4_3 k]; have := k.isLt; omega)]
    rw [hs1, BlockScratch.canon_whole]
    exact fill_apply _
  rw [hrb]
  rfl

/-- Column block 0 after row block 1. -/
theorem pay_1_0 (k : Fin 1024) :
    Jst (kernelRun0_A.sl.v128 c a1 h1 a2 h2 a4 x0 x1) (Dij (kernelRun0_A.sl.r c a1 h1 x0) (kernelRun0_A.sl.r_1 c a2 h2 x1) 1 0) (ix2 (0 : Fin 1) k) = A2 P Q 0 k := by
  rw [Jst_apply]
  have hrb : (kernelRun0_A.sl.v128 c a1 h1 a2 h2 a4 x0 x1) (ix2 (0 : Fin 1) k) = A1 P Q 0 k := by
    show a4.view.readCov (kernelRun0_A.sl.HS0_5 c a1 h1 a2 h2 a4 x0 x1) (BlockScratch.blk 0 Facts₀.inb_S1x4096_S1x1024_0_0).toLoadRect (ix2 (0 : Fin 1) k) = _
    rw [BlockScratch.readCov_at _ _ 0 Facts₀.inb_S1x4096_S1x1024_0_0 0 k (at4 0 k) (at4_0 k)]
    rw [hs5, BlockScratch.canon_miss 3072 Facts₀.inb_S1x4096_S1x1024_0_3072 _ _ (at4 0 k) (by rw [at4_0 k]; have := k.isLt; omega)]
    rw [hs4, BlockScratch.canon_miss 2048 Facts₀.inb_S1x4096_S1x1024_0_2048 _ _ (at4 0 k) (by rw [at4_0 k]; have := k.isLt; omega)]
    rw [hs3, BlockScratch.canon_miss 1024 Facts₀.inb_S1x4096_S1x1024_0_1024 _ _ (at4 0 k) (by rw [at4_0 k]; have := k.isLt; omega)]
    rw [hs2, BlockScratch.canon_hit 0 Facts₀.inb_S1x4096_S1x1024_0_0 _ _ k (at4 0 k) (at4_0 k)]
    exact pay_0_0 c a1 h1 a2 h2 a4 x0 x1 k
  rw [hrb]
  rfl

/-- Column block 1 after row block 1. -/
theorem pay_1_1 (k : Fin 1024) :
    Jst (kernelRun0_A.sl.v149 c a1 h1 a2 h2 a4 x0 x1) (Dij (kernelRun0_A.sl.r c a1 h1 x0) (kernelRun0_A.sl.r_1 c a2 h2 x1) 1 1) (ix2 (0 : Fin 1) k) = A2 P Q 1 k := by
  rw [Jst_apply]
  have hrb : (kernelRun0_A.sl.v149 c a1 h1 a2 h2 a4 x0 x1) (ix2 (0 : Fin 1) k) = A1 P Q 1 k := by
    show a4.view.readCov (kernelRun0_A.sl.HS0_6 c a1 h1 a2 h2 a4 x0 x1) (BlockScratch.blk 1024 Facts₀.inb_S1x4096_S1x1024_0_1024).toLoadRect (ix2 (0 : Fin 1) k) = _
    rw [BlockScratch.readCov_at _ _ 1024 Facts₀.inb_S1x4096_S1x1024_0_1024 0 k (at4 1 k) (at4_1 k)]
    rw [hs6, BlockScratch.canon_miss 0 Facts₀.inb_S1x4096_S1x1024_0_0 _ _ (at4 1 k) (by rw [at4_1 k]; have := k.isLt; omega)]
    rw [hs5, BlockScratch.canon_miss 3072 Facts₀.inb_S1x4096_S1x1024_0_3072 _ _ (at4 1 k) (by rw [at4_1 k]; have := k.isLt; omega)]
    rw [hs4, BlockScratch.canon_miss 2048 Facts₀.inb_S1x4096_S1x1024_0_2048 _ _ (at4 1 k) (by rw [at4_1 k]; have := k.isLt; omega)]
    rw [hs3, BlockScratch.canon_hit 1024 Facts₀.inb_S1x4096_S1x1024_0_1024 _ _ k (at4 1 k) (at4_1 k)]
    exact pay_0_1 c a1 h1 a2 h2 a4 x0 x1 k
  rw [hrb]
  rfl

/-- Column block 2 after row block 1. -/
theorem pay_1_2 (k : Fin 1024) :
    Jst (kernelRun0_A.sl.v170 c a1 h1 a2 h2 a4 x0 x1) (Dij (kernelRun0_A.sl.r c a1 h1 x0) (kernelRun0_A.sl.r_1 c a2 h2 x1) 1 2) (ix2 (0 : Fin 1) k) = A2 P Q 2 k := by
  rw [Jst_apply]
  have hrb : (kernelRun0_A.sl.v170 c a1 h1 a2 h2 a4 x0 x1) (ix2 (0 : Fin 1) k) = A1 P Q 2 k := by
    show a4.view.readCov (kernelRun0_A.sl.HS0_7 c a1 h1 a2 h2 a4 x0 x1) (BlockScratch.blk 2048 Facts₀.inb_S1x4096_S1x1024_0_2048).toLoadRect (ix2 (0 : Fin 1) k) = _
    rw [BlockScratch.readCov_at _ _ 2048 Facts₀.inb_S1x4096_S1x1024_0_2048 0 k (at4 2 k) (at4_2 k)]
    rw [hs7, BlockScratch.canon_miss 1024 Facts₀.inb_S1x4096_S1x1024_0_1024 _ _ (at4 2 k) (by rw [at4_2 k]; have := k.isLt; omega)]
    rw [hs6, BlockScratch.canon_miss 0 Facts₀.inb_S1x4096_S1x1024_0_0 _ _ (at4 2 k) (by rw [at4_2 k]; have := k.isLt; omega)]
    rw [hs5, BlockScratch.canon_miss 3072 Facts₀.inb_S1x4096_S1x1024_0_3072 _ _ (at4 2 k) (by rw [at4_2 k]; have := k.isLt; omega)]
    rw [hs4, BlockScratch.canon_hit 2048 Facts₀.inb_S1x4096_S1x1024_0_2048 _ _ k (at4 2 k) (at4_2 k)]
    exact pay_0_2 c a1 h1 a2 h2 a4 x0 x1 k
  rw [hrb]
  rfl

/-- Column block 3 after row block 1. -/
theorem pay_1_3 (k : Fin 1024) :
    Jst (kernelRun0_A.sl.v191 c a1 h1 a2 h2 a4 x0 x1) (Dij (kernelRun0_A.sl.r c a1 h1 x0) (kernelRun0_A.sl.r_1 c a2 h2 x1) 1 3) (ix2 (0 : Fin 1) k) = A2 P Q 3 k := by
  rw [Jst_apply]
  have hrb : (kernelRun0_A.sl.v191 c a1 h1 a2 h2 a4 x0 x1) (ix2 (0 : Fin 1) k) = A1 P Q 3 k := by
    show a4.view.readCov (kernelRun0_A.sl.HS0_8 c a1 h1 a2 h2 a4 x0 x1) (BlockScratch.blk 3072 Facts₀.inb_S1x4096_S1x1024_0_3072).toLoadRect (ix2 (0 : Fin 1) k) = _
    rw [BlockScratch.readCov_at _ _ 3072 Facts₀.inb_S1x4096_S1x1024_0_3072 0 k (at4 3 k) (at4_3 k)]
    rw [hs8, BlockScratch.canon_miss 2048 Facts₀.inb_S1x4096_S1x1024_0_2048 _ _ (at4 3 k) (by rw [at4_3 k]; have := k.isLt; omega)]
    rw [hs7, BlockScratch.canon_miss 1024 Facts₀.inb_S1x4096_S1x1024_0_1024 _ _ (at4 3 k) (by rw [at4_3 k]; have := k.isLt; omega)]
    rw [hs6, BlockScratch.canon_miss 0 Facts₀.inb_S1x4096_S1x1024_0_0 _ _ (at4 3 k) (by rw [at4_3 k]; have := k.isLt; omega)]
    rw [hs5, BlockScratch.canon_hit 3072 Facts₀.inb_S1x4096_S1x1024_0_3072 _ _ k (at4 3 k) (at4_3 k)]
    exact pay_0_3 c a1 h1 a2 h2 a4 x0 x1 k
  rw [hrb]
  rfl

/-- Column block 0 after row block 2. -/
theorem pay_2_0 (k : Fin 1024) :
    Jst (kernelRun0_A.sl.v221 c a1 h1 a2 h2 a4 x0 x1) (Dij (kernelRun0_A.sl.r c a1 h1 x0) (kernelRun0_A.sl.r_1 c a2 h2 x1) 2 0) (ix2 (0 : Fin 1) k) = A3 P Q 0 k := by
  rw [Jst_apply]
  have hrb : (kernelRun0_A.sl.v221 c a1 h1 a2 h2 a4 x0 x1) (ix2 (0 : Fin 1) k) = A2 P Q 0 k := by
    show a4.view.readCov (kernelRun0_A.sl.HS0_9 c a1 h1 a2 h2 a4 x0 x1) (BlockScratch.blk 0 Facts₀.inb_S1x4096_S1x1024_0_0).toLoadRect (ix2 (0 : Fin 1) k) = _
    rw [BlockScratch.readCov_at _ _ 0 Facts₀.inb_S1x4096_S1x1024_0_0 0 k (at4 0 k) (at4_0 k)]
    rw [hs9, BlockScratch.canon_miss 3072 Facts₀.inb_S1x4096_S1x1024_0_3072 _ _ (at4 0 k) (by rw [at4_0 k]; have := k.isLt; omega)]
    rw [hs8, BlockScratch.canon_miss 2048 Facts₀.inb_S1x4096_S1x1024_0_2048 _ _ (at4 0 k) (by rw [at4_0 k]; have := k.isLt; omega)]
    rw [hs7, BlockScratch.canon_miss 1024 Facts₀.inb_S1x4096_S1x1024_0_1024 _ _ (at4 0 k) (by rw [at4_0 k]; have := k.isLt; omega)]
    rw [hs6, BlockScratch.canon_hit 0 Facts₀.inb_S1x4096_S1x1024_0_0 _ _ k (at4 0 k) (at4_0 k)]
    exact pay_1_0 c a1 h1 a2 h2 a4 x0 x1 k
  rw [hrb]
  rfl

/-- Column block 1 after row block 2. -/
theorem pay_2_1 (k : Fin 1024) :
    Jst (kernelRun0_A.sl.v242 c a1 h1 a2 h2 a4 x0 x1) (Dij (kernelRun0_A.sl.r c a1 h1 x0) (kernelRun0_A.sl.r_1 c a2 h2 x1) 2 1) (ix2 (0 : Fin 1) k) = A3 P Q 1 k := by
  rw [Jst_apply]
  have hrb : (kernelRun0_A.sl.v242 c a1 h1 a2 h2 a4 x0 x1) (ix2 (0 : Fin 1) k) = A2 P Q 1 k := by
    show a4.view.readCov (kernelRun0_A.sl.HS0_10 c a1 h1 a2 h2 a4 x0 x1) (BlockScratch.blk 1024 Facts₀.inb_S1x4096_S1x1024_0_1024).toLoadRect (ix2 (0 : Fin 1) k) = _
    rw [BlockScratch.readCov_at _ _ 1024 Facts₀.inb_S1x4096_S1x1024_0_1024 0 k (at4 1 k) (at4_1 k)]
    rw [hs10, BlockScratch.canon_miss 0 Facts₀.inb_S1x4096_S1x1024_0_0 _ _ (at4 1 k) (by rw [at4_1 k]; have := k.isLt; omega)]
    rw [hs9, BlockScratch.canon_miss 3072 Facts₀.inb_S1x4096_S1x1024_0_3072 _ _ (at4 1 k) (by rw [at4_1 k]; have := k.isLt; omega)]
    rw [hs8, BlockScratch.canon_miss 2048 Facts₀.inb_S1x4096_S1x1024_0_2048 _ _ (at4 1 k) (by rw [at4_1 k]; have := k.isLt; omega)]
    rw [hs7, BlockScratch.canon_hit 1024 Facts₀.inb_S1x4096_S1x1024_0_1024 _ _ k (at4 1 k) (at4_1 k)]
    exact pay_1_1 c a1 h1 a2 h2 a4 x0 x1 k
  rw [hrb]
  rfl

/-- Column block 2 after row block 2. -/
theorem pay_2_2 (k : Fin 1024) :
    Jst (kernelRun0_A.sl.v263 c a1 h1 a2 h2 a4 x0 x1) (Dij (kernelRun0_A.sl.r c a1 h1 x0) (kernelRun0_A.sl.r_1 c a2 h2 x1) 2 2) (ix2 (0 : Fin 1) k) = A3 P Q 2 k := by
  rw [Jst_apply]
  have hrb : (kernelRun0_A.sl.v263 c a1 h1 a2 h2 a4 x0 x1) (ix2 (0 : Fin 1) k) = A2 P Q 2 k := by
    show a4.view.readCov (kernelRun0_A.sl.HS0_11 c a1 h1 a2 h2 a4 x0 x1) (BlockScratch.blk 2048 Facts₀.inb_S1x4096_S1x1024_0_2048).toLoadRect (ix2 (0 : Fin 1) k) = _
    rw [BlockScratch.readCov_at _ _ 2048 Facts₀.inb_S1x4096_S1x1024_0_2048 0 k (at4 2 k) (at4_2 k)]
    rw [hs11, BlockScratch.canon_miss 1024 Facts₀.inb_S1x4096_S1x1024_0_1024 _ _ (at4 2 k) (by rw [at4_2 k]; have := k.isLt; omega)]
    rw [hs10, BlockScratch.canon_miss 0 Facts₀.inb_S1x4096_S1x1024_0_0 _ _ (at4 2 k) (by rw [at4_2 k]; have := k.isLt; omega)]
    rw [hs9, BlockScratch.canon_miss 3072 Facts₀.inb_S1x4096_S1x1024_0_3072 _ _ (at4 2 k) (by rw [at4_2 k]; have := k.isLt; omega)]
    rw [hs8, BlockScratch.canon_hit 2048 Facts₀.inb_S1x4096_S1x1024_0_2048 _ _ k (at4 2 k) (at4_2 k)]
    exact pay_1_2 c a1 h1 a2 h2 a4 x0 x1 k
  rw [hrb]
  rfl

/-- Column block 3 after row block 2. -/
theorem pay_2_3 (k : Fin 1024) :
    Jst (kernelRun0_A.sl.v284 c a1 h1 a2 h2 a4 x0 x1) (Dij (kernelRun0_A.sl.r c a1 h1 x0) (kernelRun0_A.sl.r_1 c a2 h2 x1) 2 3) (ix2 (0 : Fin 1) k) = A3 P Q 3 k := by
  rw [Jst_apply]
  have hrb : (kernelRun0_A.sl.v284 c a1 h1 a2 h2 a4 x0 x1) (ix2 (0 : Fin 1) k) = A2 P Q 3 k := by
    show a4.view.readCov (kernelRun0_A.sl.HS0_12 c a1 h1 a2 h2 a4 x0 x1) (BlockScratch.blk 3072 Facts₀.inb_S1x4096_S1x1024_0_3072).toLoadRect (ix2 (0 : Fin 1) k) = _
    rw [BlockScratch.readCov_at _ _ 3072 Facts₀.inb_S1x4096_S1x1024_0_3072 0 k (at4 3 k) (at4_3 k)]
    rw [hs12, BlockScratch.canon_miss 2048 Facts₀.inb_S1x4096_S1x1024_0_2048 _ _ (at4 3 k) (by rw [at4_3 k]; have := k.isLt; omega)]
    rw [hs11, BlockScratch.canon_miss 1024 Facts₀.inb_S1x4096_S1x1024_0_1024 _ _ (at4 3 k) (by rw [at4_3 k]; have := k.isLt; omega)]
    rw [hs10, BlockScratch.canon_miss 0 Facts₀.inb_S1x4096_S1x1024_0_0 _ _ (at4 3 k) (by rw [at4_3 k]; have := k.isLt; omega)]
    rw [hs9, BlockScratch.canon_hit 3072 Facts₀.inb_S1x4096_S1x1024_0_3072 _ _ k (at4 3 k) (at4_3 k)]
    exact pay_1_3 c a1 h1 a2 h2 a4 x0 x1 k
  rw [hrb]
  rfl

/-- Column block 0 after row block 3. -/
theorem pay_3_0 (k : Fin 1024) :
    Jst (kernelRun0_A.sl.v314 c a1 h1 a2 h2 a4 x0 x1) (Dij (kernelRun0_A.sl.r c a1 h1 x0) (kernelRun0_A.sl.r_1 c a2 h2 x1) 3 0) (ix2 (0 : Fin 1) k) = A4 P Q 0 k := by
  rw [Jst_apply]
  have hrb : (kernelRun0_A.sl.v314 c a1 h1 a2 h2 a4 x0 x1) (ix2 (0 : Fin 1) k) = A3 P Q 0 k := by
    show a4.view.readCov (kernelRun0_A.sl.HS0_13 c a1 h1 a2 h2 a4 x0 x1) (BlockScratch.blk 0 Facts₀.inb_S1x4096_S1x1024_0_0).toLoadRect (ix2 (0 : Fin 1) k) = _
    rw [BlockScratch.readCov_at _ _ 0 Facts₀.inb_S1x4096_S1x1024_0_0 0 k (at4 0 k) (at4_0 k)]
    rw [hs13, BlockScratch.canon_miss 3072 Facts₀.inb_S1x4096_S1x1024_0_3072 _ _ (at4 0 k) (by rw [at4_0 k]; have := k.isLt; omega)]
    rw [hs12, BlockScratch.canon_miss 2048 Facts₀.inb_S1x4096_S1x1024_0_2048 _ _ (at4 0 k) (by rw [at4_0 k]; have := k.isLt; omega)]
    rw [hs11, BlockScratch.canon_miss 1024 Facts₀.inb_S1x4096_S1x1024_0_1024 _ _ (at4 0 k) (by rw [at4_0 k]; have := k.isLt; omega)]
    rw [hs10, BlockScratch.canon_hit 0 Facts₀.inb_S1x4096_S1x1024_0_0 _ _ k (at4 0 k) (at4_0 k)]
    exact pay_2_0 c a1 h1 a2 h2 a4 x0 x1 k
  rw [hrb]
  rfl

/-- Column block 1 after row block 3. -/
theorem pay_3_1 (k : Fin 1024) :
    Jst (kernelRun0_A.sl.v335 c a1 h1 a2 h2 a4 x0 x1) (Dij (kernelRun0_A.sl.r c a1 h1 x0) (kernelRun0_A.sl.r_1 c a2 h2 x1) 3 1) (ix2 (0 : Fin 1) k) = A4 P Q 1 k := by
  rw [Jst_apply]
  have hrb : (kernelRun0_A.sl.v335 c a1 h1 a2 h2 a4 x0 x1) (ix2 (0 : Fin 1) k) = A3 P Q 1 k := by
    show a4.view.readCov (kernelRun0_A.sl.HS0_14 c a1 h1 a2 h2 a4 x0 x1) (BlockScratch.blk 1024 Facts₀.inb_S1x4096_S1x1024_0_1024).toLoadRect (ix2 (0 : Fin 1) k) = _
    rw [BlockScratch.readCov_at _ _ 1024 Facts₀.inb_S1x4096_S1x1024_0_1024 0 k (at4 1 k) (at4_1 k)]
    rw [hs14, BlockScratch.canon_miss 0 Facts₀.inb_S1x4096_S1x1024_0_0 _ _ (at4 1 k) (by rw [at4_1 k]; have := k.isLt; omega)]
    rw [hs13, BlockScratch.canon_miss 3072 Facts₀.inb_S1x4096_S1x1024_0_3072 _ _ (at4 1 k) (by rw [at4_1 k]; have := k.isLt; omega)]
    rw [hs12, BlockScratch.canon_miss 2048 Facts₀.inb_S1x4096_S1x1024_0_2048 _ _ (at4 1 k) (by rw [at4_1 k]; have := k.isLt; omega)]
    rw [hs11, BlockScratch.canon_hit 1024 Facts₀.inb_S1x4096_S1x1024_0_1024 _ _ k (at4 1 k) (at4_1 k)]
    exact pay_2_1 c a1 h1 a2 h2 a4 x0 x1 k
  rw [hrb]
  rfl

/-- Column block 2 after row block 3. -/
theorem pay_3_2 (k : Fin 1024) :
    Jst (kernelRun0_A.sl.v356 c a1 h1 a2 h2 a4 x0 x1) (Dij (kernelRun0_A.sl.r c a1 h1 x0) (kernelRun0_A.sl.r_1 c a2 h2 x1) 3 2) (ix2 (0 : Fin 1) k) = A4 P Q 2 k := by
  rw [Jst_apply]
  have hrb : (kernelRun0_A.sl.v356 c a1 h1 a2 h2 a4 x0 x1) (ix2 (0 : Fin 1) k) = A3 P Q 2 k := by
    show a4.view.readCov (kernelRun0_A.sl.HS0_15 c a1 h1 a2 h2 a4 x0 x1) (BlockScratch.blk 2048 Facts₀.inb_S1x4096_S1x1024_0_2048).toLoadRect (ix2 (0 : Fin 1) k) = _
    rw [BlockScratch.readCov_at _ _ 2048 Facts₀.inb_S1x4096_S1x1024_0_2048 0 k (at4 2 k) (at4_2 k)]
    rw [hs15, BlockScratch.canon_miss 1024 Facts₀.inb_S1x4096_S1x1024_0_1024 _ _ (at4 2 k) (by rw [at4_2 k]; have := k.isLt; omega)]
    rw [hs14, BlockScratch.canon_miss 0 Facts₀.inb_S1x4096_S1x1024_0_0 _ _ (at4 2 k) (by rw [at4_2 k]; have := k.isLt; omega)]
    rw [hs13, BlockScratch.canon_miss 3072 Facts₀.inb_S1x4096_S1x1024_0_3072 _ _ (at4 2 k) (by rw [at4_2 k]; have := k.isLt; omega)]
    rw [hs12, BlockScratch.canon_hit 2048 Facts₀.inb_S1x4096_S1x1024_0_2048 _ _ k (at4 2 k) (at4_2 k)]
    exact pay_2_2 c a1 h1 a2 h2 a4 x0 x1 k
  rw [hrb]
  rfl

/-- Column block 3 after row block 3. -/
theorem pay_3_3 (k : Fin 1024) :
    Jst (kernelRun0_A.sl.v377 c a1 h1 a2 h2 a4 x0 x1) (Dij (kernelRun0_A.sl.r c a1 h1 x0) (kernelRun0_A.sl.r_1 c a2 h2 x1) 3 3) (ix2 (0 : Fin 1) k) = A4 P Q 3 k := by
  rw [Jst_apply]
  have hrb : (kernelRun0_A.sl.v377 c a1 h1 a2 h2 a4 x0 x1) (ix2 (0 : Fin 1) k) = A3 P Q 3 k := by
    show a4.view.readCov (kernelRun0_A.sl.HS0_16 c a1 h1 a2 h2 a4 x0 x1) (BlockScratch.blk 3072 Facts₀.inb_S1x4096_S1x1024_0_3072).toLoadRect (ix2 (0 : Fin 1) k) = _
    rw [BlockScratch.readCov_at _ _ 3072 Facts₀.inb_S1x4096_S1x1024_0_3072 0 k (at4 3 k) (at4_3 k)]
    rw [hs16, BlockScratch.canon_miss 2048 Facts₀.inb_S1x4096_S1x1024_0_2048 _ _ (at4 3 k) (by rw [at4_3 k]; have := k.isLt; omega)]
    rw [hs15, BlockScratch.canon_miss 1024 Facts₀.inb_S1x4096_S1x1024_0_1024 _ _ (at4 3 k) (by rw [at4_3 k]; have := k.isLt; omega)]
    rw [hs14, BlockScratch.canon_miss 0 Facts₀.inb_S1x4096_S1x1024_0_0 _ _ (at4 3 k) (by rw [at4_3 k]; have := k.isLt; omega)]
    rw [hs13, BlockScratch.canon_hit 3072 Facts₀.inb_S1x4096_S1x1024_0_3072 _ _ k (at4 3 k) (at4_3 k)]
    exact pay_2_3 c a1 h1 a2 h2 a4 x0 x1 k
  rw [hrb]
  rfl

/-- The scratch row read back whole holds the column minima. -/
theorem scr_apply (t : Fin 4096) : kernelRun0_A.sl.v387 c a1 h1 a2 h2 a4 x0 x1 (ix2 (0 : Fin 1) t) = colMin P Q t := by
  show a4.view.readCov (kernelRun0_A.sl.HS0_17 c a1 h1 a2 h2 a4 x0 x1) (Rect.unit ![0, 0] S1x4096.size Facts₀.inb_S1x4096_S1x4096_0_0).toLoadRect (ix2 (0 : Fin 1) t) = _
  rw [BlockScratch.readCov_whole]
  obtain ⟨j, k, rfl⟩ : ∃ (j : Fin 4) (k : Fin 1024), t = at4 j k :=
    ⟨⟨t.val / 1024, by have := t.isLt; omega⟩, ⟨t.val % 1024, Nat.mod_lt _ (by norm_num)⟩,
      Fin.ext (by show t.val = t.val / 1024 * 1024 + t.val % 1024; omega)⟩
  rw [← A4_eq]
  match j with
  | 0 =>
    rw [hs17, BlockScratch.canon_miss 3072 Facts₀.inb_S1x4096_S1x1024_0_3072 _ _ (at4 0 k) (by rw [at4_0 k]; have := k.isLt; omega),
      hs16, BlockScratch.canon_miss 2048 Facts₀.inb_S1x4096_S1x1024_0_2048 _ _ (at4 0 k) (by rw [at4_0 k]; have := k.isLt; omega),
      hs15, BlockScratch.canon_miss 1024 Facts₀.inb_S1x4096_S1x1024_0_1024 _ _ (at4 0 k) (by rw [at4_0 k]; have := k.isLt; omega),
      hs14, BlockScratch.canon_hit 0 Facts₀.inb_S1x4096_S1x1024_0_0 _ _ k (at4 0 k) (at4_0 k)]
    exact pay_3_0 c a1 h1 a2 h2 a4 x0 x1 k
  | 1 =>
    rw [hs17, BlockScratch.canon_miss 3072 Facts₀.inb_S1x4096_S1x1024_0_3072 _ _ (at4 1 k) (by rw [at4_1 k]; have := k.isLt; omega),
      hs16, BlockScratch.canon_miss 2048 Facts₀.inb_S1x4096_S1x1024_0_2048 _ _ (at4 1 k) (by rw [at4_1 k]; have := k.isLt; omega),
      hs15, BlockScratch.canon_hit 1024 Facts₀.inb_S1x4096_S1x1024_0_1024 _ _ k (at4 1 k) (at4_1 k)]
    exact pay_3_1 c a1 h1 a2 h2 a4 x0 x1 k
  | 2 =>
    rw [hs17, BlockScratch.canon_miss 3072 Facts₀.inb_S1x4096_S1x1024_0_3072 _ _ (at4 2 k) (by rw [at4_2 k]; have := k.isLt; omega),
      hs16, BlockScratch.canon_hit 2048 Facts₀.inb_S1x4096_S1x1024_0_2048 _ _ k (at4 2 k) (at4_2 k)]
    exact pay_3_2 c a1 h1 a2 h2 a4 x0 x1 k
  | 3 =>
    rw [hs17, BlockScratch.canon_hit 3072 Facts₀.inb_S1x4096_S1x1024_0_3072 _ _ k (at4 3 k) (at4_3 k)]
    exact pay_3_3 c a1 h1 a2 h2 a4 x0 x1 k

end Cert.KernelIdeal.BlockRun

end
-- ==== Proof.BlockValue.lean ====
/-
  What one grid point of the kernel leaves in its output block: the loss of that point's pair of clouds.

  The body's stores to the output block are one store of the whole block; its payload is, by BlockRun.lean,
  `total src dst scr` of the two input blocks read as clouds and the scratch row read back, and the scratch row holds
  the column minima; BlockBody.lean's `total_apply` then gives `batchLoss`.
-/
import proofs.«158294_j79070347920144_2_alg».proof.Proof.Gen.KernelIdeal.Frame
import proofs.«158294_j79070347920144_2_alg».proof.Proof.BlockRun
import proofs.«158294_j79070347920144_2_alg».proof.Proof.Chamfer
import Idealize.ShloMosaic.Lib.ValueIdx

noncomputable section

namespace Cert.KernelIdeal.BlockValue

open Cert.KernelIdeal Cert.KernelIdeal.Gen Idealize.ShloMosaic Idealize.ShloMosaic.ValueIdx

/-- The body's one output element is the loss of the two clouds held (coordinate-major) by its two input blocks. -/
theorem out_eq (c : Dev nD) (i : grid0.Coords) (a1 : Memref sig .tc .vmem S1x3x4096 .f32) (h1 : a1.IsWhole)
    (a2 : Memref sig .tc .vmem S1x3x4096 .f32) (h2 : a2.IsWhole) (a3 : Memref sig .tc .vmem S1x1x1 .f32) (h3 : a3.IsWhole)
    (a4 : Memref sig .tc .vmem S1x4096 .f32) (h4 : a4.IsWhole)
    (x0 x1 : Vec Ideal S1x3x4096 .f32) (y : S1x1x1.Idx) :
    out0_A_2 (F := Ideal) c i a1 h1 a2 h2 a3 h3 a4 h4 x0 x1 y
      = Cert.Chamfer.batchLoss (fun s k => x0 (ix3 (0 : Fin 1) k s)) (fun t k => x1 (ix3 (0 : Fin 1) k t)) := by
  unfold out0_A_2
  rw [View.read_writes_eq_canon _ _ _ (cover0_A_2 c i a1 h1 a2 h2 a3 h3 a4 h4 x0 x1)]
  unfold kernelRun0_A
  dsimp only
  rw [View.canon_unit_zero BlockRun.hz3, BlockRun.out_names,
    BlockBody.total_apply _ _ _ (BlockRun.scr_apply c a1 h1 a2 h2 a4 x0 x1) y,
    BlockRun.pts_src, BlockRun.pts_dst]

end Cert.KernelIdeal.BlockValue

end
-- ==== Proof.KernelValue.lean ====
/-
  From one grid point's value to the kernel program's result.

  The program gathers 4096 points from each of the 16 source clouds and 16 destination clouds (two arrays laid out
  [cloud, point, coordinate]), transposes each to [cloud, coordinate, point], and runs one grid of 16 points: point b
  reads cloud b of each transposed array (a block [1, 3, 4096] at block index (b, 0, 0)) and writes one number, element
  (b, 0, 0) of a [16, 1, 1] array.  After the grid the program views that array as 16 numbers, adds them to 0, divides
  by 16 and multiplies by 1.

  Given that the number written at point b is the chamfer loss of the two clouds the point reads, the result is
  therefore  ((Σ_b batchLoss (src b) (dst b)) / 16) · 1  =  loss src dst  of the two gathered arrays:
    * a block element (0, k, s) of the transposed array at point b is element (b, s, k) of the gathered array, so the two
      point functions the block value is stated over are clouds b of the gathered arrays;
    * the 16 output blocks are the 16 elements of the output array, each written once, so the array after the grid is
      the function (b, 0, 0) ↦ batchLoss (src b) (dst b);
    * the reshape [16,1,1] → [16] keeps the row-major position, the sum of all 16 entries from the zero word is their
      sum, and the division and product are those of the specification, with the same words for 16 and 1.
  The gathered arrays themselves are the same composition of operations of the argument arrays as in the reference
  program, operation for operation.
-/
import proofs.«158294_j79070347920144_2_alg».proof.Proof.BlockValue
import proofs.«158294_j79070347920144_2_alg».proof.Proof.Chamfer
import proofs.«158294_j79070347920144_2_alg».proof.Proof.RefReadPatched
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The gathered source points, [cloud, point, coordinate], as the grid finds them. -/
abbrev gsrc (c : Dev nD) : (⟨3, ![16, 4096, 3]⟩ : Shape).Idx → EReal := Gen.V (F := Ideal) m c main_v1
/-- The gathered destination points, likewise. -/
abbrev gdst (c : Dev nD) : (⟨3, ![16, 4096, 3]⟩ : Shape).Idx → EReal := Gen.V (F := Ideal) m c main_v3

/-! ## The arrays the grid reads: the gathered arrays with their last two axes exchanged -/

theorem V4_eq (c : Dev nD) : (Gen.V (F := Ideal) m c main_v4 : S16x3x4096.Idx → EReal)
    = transpose S16x3x4096 [0, 2, 1] (gsrc m c) transposes_S16x4096x3_S16x3x4096_0_2_1 := by
  dsimp only [gsrc, Gen.V, Gen.V0]
  simp only [Gen.hostOps0, Gen.hostOps0_1, Gen.hostOps0_2, Gen.hostOps0_3, Gen.hostOps0_4, List.flatten_cons, List.flatten_nil, List.append_nil, List.cons_append, List.nil_append]
  after_results

theorem V5_eq (c : Dev nD) : (Gen.V (F := Ideal) m c main_v5 : S16x3x4096.Idx → EReal)
    = transpose S16x3x4096 [0, 2, 1] (gdst m c) transposes_S16x4096x3_S16x3x4096_0_2_1 := by
  dsimp only [gdst, Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- At grid point t each of the three windows sits at block index (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Element (0, k, s) of the first input block at point t is coordinate k of point s of source cloud t. -/
theorem iblk0_apply (c : Dev nD) (t : Fin cfg0.N) (b : Fin 16) (hb : b.val = t.val) (k : Fin 3) (s : Fin 4096) :
    (iblk (F := Ideal) m c 0 t : Vec Ideal S1x3x4096 .f32) (ix3 (0 : Fin 1) k s) = gsrc m c (ix3 b s k) := by
  obtain ⟨e0, e1, e2, -⟩ := idx_facts t
  unfold iblk
  rw [View.read_apply]
  show (Gen.V (F := Ideal) m c main_v4 : S16x3x4096.Idx → EReal) _ = _
  rw [V4_eq]
  refine transpose_apply _ _ _ _ (ix3 b s k) fun a => ?_
  match a with
  | ⟨0, _⟩ => show b.val = win0_0.index t (0 : Fin 3) * 1 + 1 * 0; rw [e0, hb]; omega
  | ⟨1, _⟩ => show k.val = win0_0.index t (1 : Fin 3) * 3 + 1 * k.val; rw [e1]; omega
  | ⟨2, _⟩ => show s.val = win0_0.index t (2 : Fin 3) * 4096 + 1 * s.val; rw [e2]; omega

/-- Element (0, k, s) of the second input block at point t is coordinate k of point s of destination cloud t. -/
theorem iblk1_apply (c : Dev nD) (t : Fin cfg0.N) (b : Fin 16) (hb : b.val = t.val) (k : Fin 3) (s : Fin 4096) :
    (iblk (F := Ideal) m c 1 t : Vec Ideal S1x3x4096 .f32) (ix3 (0 : Fin 1) k s) = gdst m c (ix3 b s k) := by
  obtain ⟨-, -, -, e0, e1, e2, -⟩ := idx_facts t
  unfold iblk
  rw [View.read_apply]
  show (Gen.V (F := Ideal) m c main_v5 : S16x3x4096.Idx → EReal) _ = _
  rw [V5_eq]
  refine transpose_apply _ _ _ _ (ix3 b s k) fun a => ?_
  match a with
  | ⟨0, _⟩ => show b.val = win0_1.index t (0 : Fin 3) * 1 + 1 * 0; rw [e0, hb]; omega
  | ⟨1, _⟩ => show k.val = win0_1.index t (1 : Fin 3) * 3 + 1 * k.val; rw [e1]; omega
  | ⟨2, _⟩ => show s.val = win0_1.index t (2 : Fin 3) * 4096 + 1 * s.val; rw [e2]; omega

/-! ## The output array after the grid -/

/-- The loss of pair b of the two gathered arrays. -/
def pairLoss (c : Dev nD) (b : Fin 16) : EReal :=
  Cert.Chamfer.batchLoss (Cert.Chamfer.cloud (gsrc m c) b) (Cert.Chamfer.cloud (gdst m c) b)

/-- The output array as one function of its index: at (b, 0, 0), the loss of pair b. -/
abbrev G (c : Dev nD) : S16x1x1.Idx → EReal := fun i => pairLoss m c ⟨(i 0).val, (i 0).isLt⟩

/-- What point t writes back is block t of that function. -/
theorem flushed_eq (c : Dev nD) (t : Fin cfg0.N) :
    (dats (F := Ideal) m 0 c).flushed 2 t = ((cfg0.win 2).blk t).view.read (Elt Ideal) (G m c) := by
  have hN : cfg0.N = 16 := N_0
  obtain ⟨-, -, -, -, -, -, e0, -⟩ := idx_facts t
  show (cfg0.win 2).cut (grid0.coords t) ((dats (F := Ideal) m 0 c).after 2 t) = _
  rw [after0_2]
  unfold outsAt0
  funext y
  rw [View.read_apply]
  refine (BlockValue.out_eq c (grid0.coords t) (ms0_0 t) (hs0_0 t) (ms0_1 t) (hs0_1 t) (ms0_2 t) (hs0_2 t) scM0_0
    (Memref.isWhole_whole _) (iblk (F := Ideal) m c 0 t) (iblk (F := Ideal) m c 1 t) ((cfg0.win 2).xinj (grid0.coords t) y)).trans ?_
  have hb : t.val < 16 := hN ▸ t.isLt
  have e0' : (fun (s : Fin 4096) (k : Fin 3) => (iblk (F := Ideal) m c 0 t : Vec Ideal S1x3x4096 .f32) (ix3 (0 : Fin 1) k s))
      = Cert.Chamfer.cloud (gsrc m c) ⟨t.val, hb⟩ :=
    funext fun s => funext fun k => iblk0_apply m c t ⟨t.val, hb⟩ rfl k s
  have e1' : (fun (s : Fin 4096) (k : Fin 3) => (iblk (F := Ideal) m c 1 t : Vec Ideal S1x3x4096 .f32) (ix3 (0 : Fin 1) k s))
      = Cert.Chamfer.cloud (gdst m c) ⟨t.val, hb⟩ :=
    funext fun s => funext fun k => iblk1_apply m c t ⟨t.val, hb⟩ rfl k s
  rw [e0', e1']
  show pairLoss m c ⟨t.val, hb⟩ = pairLoss m c _
  refine congrArg (pairLoss m c) (Fin.ext ?_)
  show t.val = win0_2.index t (0 : Fin 3) * 1 + 1 * (y 0).val
  have hy : (y 0).val < 1 := (y 0).isLt
  rw [e0]; omega

/-- An index of the output array is in point t's block iff each coordinate is in the block's range on its axis. -/
theorem mem_blk (t : Fin cfg0.N) (i : S16x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v6).slice (win0_2.rect t)).set ↔ _
  rw [View.set_slice_whole, Rect.mem_set_unit]
  exact Iff.rfl

/-- Index (b, 0, 0) is in point b's block, so the array after the grid is the function above everywhere. -/
theorem final (c : Dev nD) : (dats (F := Ideal) m 0 c).arrAt 2 cfg0.N = G m c :=
  (dats (F := Ideal) m 0 c).arrAt_eq_of_cover 2 (G m c) (fun t _ => flushed_eq m c t) fun i => by
    have hN : cfg0.N = 16 := N_0
    have h0 : (i 0).val < 16 := (i 0).isLt
    have h1 : (i 1).val < 1 := (i 1).isLt
    have h2 : (i 2).val < 1 := (i 2).isLt
    refine ⟨⟨(i 0).val, by omega⟩, flush0_2 _, ?_⟩
    rw [mem_blk]
    obtain ⟨-, -, -, -, -, -, e0, e1, e2⟩ := idx_facts ⟨(i 0).val, by omega⟩
    intro a
    match a with
    | ⟨0, _⟩ => show win0_2.index _ (0 : Fin 3) * 1 ≤ (i 0).val ∧ (i 0).val < win0_2.index _ (0 : Fin 3) * 1 + 1; rw [e0]; dsimp only; omega
    | ⟨1, _⟩ => show win0_2.index _ (1 : Fin 3) * 1 ≤ (i 1).val ∧ (i 1).val < win0_2.index _ (1 : Fin 3) * 1 + 1; rw [e1]; omega
    | ⟨2, _⟩ => show win0_2.index _ (2 : Fin 3) * 1 ≤ (i 2).val ∧ (i 2).val < win0_2.index _ (2 : Fin 3) * 1 + 1; rw [e2]; omega

/-! ## After the grid: the 16 numbers summed, divided by 16, multiplied by 1 -/

/-- The one-axis indices of extent 16 are the sixteen coordinates. -/
def e16 : Fin 16 ≃ (⟨1, ![16]⟩ : Shape).Idx where
  toFun := ix1
  invFun := fun j => j 0
  left_inv := fun _ => rfl
  right_inv := fun j => (eq_ix1 j).symm

/-- The program's result is the loss of the two gathered arrays. -/
theorem tail_eq (c : Dev nD) :
    Pipeline.afterTail₀ cfgs (dats (F := Ideal) m) 0 (V0 m) [hostOps1] c main_v10
      = fun _ => Cert.Chamfer.loss (Cert.Chamfer.cloud (gsrc m c)) (Cert.Chamfer.cloud (gdst m c)) := by
  unfold Pipeline.afterTail₀
  show StableHlo.after hostOps1 _ (Proc.devRef .tc main_v10) = _
  after_results
  have hW : Pipeline.withArrays (cfgs 0).spec c (V0 m c) (fun w => (dats (F := Ideal) m 0 c).arrAt w (cfgs 0).N) (Proc.devRef .tc main_v6) = G m c :=
    (Pipeline.withArrays_arr spec0 launch0.win.arr_inj c _ _ 2).trans (final m c)
  rw [hW]
  funext j
  show Ideal.div (Ideal.hostReduceAdd reducesTo_S16_S_d0 (shapeCast S16 (G m c) shapeCasts_S16x1x1_S16) (Ideal.ofBits .f32 0x00000000#32) j)
      (Ideal.ofBits .f32 0x41800000#32) * Ideal.ofBits .f32 0x3F800000#32 = _
  rw [Ideal.hostReduceAdd_total reducesTo_S16_S_d0 (fun b => b.elim0), Ideal.ofBits_zero_f32, zero_add]
  unfold Cert.Chamfer.loss
  refine congrArg (fun s => Ideal.div s Cert.Chamfer.n16 * Cert.Chamfer.one) ?_
  rw [← Equiv.sum_comp e16]
  refine Finset.sum_congr rfl fun b _ => ?_
  show shapeCast S16 (G m c) shapeCasts_S16x1x1_S16 (ix1 b) = _
  refine (shapeCast_apply (G m c) shapeCasts_S16x1x1_S16 (ix1 b) (ix3 b (0 : Fin 1) (0 : Fin 1)) ?_).trans rfl
  rw [Shape.rowMajor_val_three, Shape.rowMajor_val_one]
  show (b.val * 1 + 0) * 1 + 0 = b.val
  omega

/-- The run: the result is the loss of the two gathered arrays, and the four arguments end as they began. -/
theorem run : θ_run (defs (F := Ideal)) (onTc (τ := τ) (main (F := Ideal))) ⟨m, fun _ => 0, ρ⟩ fun r => ∀ c : Dev nD,
      r.2.mem ((c.tc : Thread nD τ).loc main_v10) = (fun _ => Cert.Chamfer.loss (Cert.Chamfer.cloud (gsrc m c)) (Cert.Chamfer.cloud (gdst m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The gathered arrays are the reference program's

Both programs build the gathered array from the argument arrays by the same 23 operations (the index array with a unit
axis appended, negative indices wrapped by the extent 100000, the in-range test reduced over the unit axis, the gather
of whole points, and a select that puts the word 0x7FC00000 where the index is out of range).  The two compositions are the same term;
the reductions and the gather are kept closed while they are compared. -/

attribute [local irreducible] Host.reduce Host.gather in
theorem gsrc_eq (c : Dev nD) : gsrc m c = Cert.ReferenceIdeal.ReadP.val_main_v1 (F := Ideal) (m ((c.tc : Thread nD τ).loc main_arg0)) (m ((c.tc : Thread nD τ).loc main_arg2)) := by
  dsimp only [gsrc, Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  unfold Cert.ReferenceIdeal.ReadP.val_main_v1 Cert.ReferenceIdeal.ReadP.val_main_call0_v13 Cert.ReferenceIdeal.ReadP.val_main_call0_v12 Cert.ReferenceIdeal.ReadP.val_main_call0_v14 Cert.ReferenceIdeal.ReadP.val_main_call0_cst Cert.ReferenceIdeal.ReadP.val_main_call0_v11 Cert.ReferenceIdeal.ReadP.val_main_call0_c_3 Cert.ReferenceIdeal.ReadP.val_main_call0_v10 Cert.ReferenceIdeal.ReadP.val_main_call0_v9 Cert.ReferenceIdeal.ReadP.val_main_call0_v8 Cert.ReferenceIdeal.ReadP.val_main_call0_v7 Cert.ReferenceIdeal.ReadP.val_main_call0_v6 Cert.ReferenceIdeal.ReadP.val_main_call0_v5 Cert.ReferenceIdeal.ReadP.val_main_call0_c_2 Cert.ReferenceIdeal.ReadP.val_main_call0_c_1 Cert.ReferenceIdeal.ReadP.val_main_call0_v4 Cert.ReferenceIdeal.ReadP.val_main_call0_v3 Cert.ReferenceIdeal.ReadP.val_main_call0_v2 Cert.ReferenceIdeal.ReadP.val_main_call0_c_0 Cert.ReferenceIdeal.ReadP.val_main_call0_v1 Cert.ReferenceIdeal.ReadP.val_main_call0_v0 Cert.ReferenceIdeal.ReadP.val_main_call0_c Cert.ReferenceIdeal.ReadP.val_main_v0
  rfl

attribute [local irreducible] Host.reduce Host.gather in
theorem gdst_eq (c : Dev nD) : gdst m c = Cert.ReferenceIdeal.ReadP.val_main_v3 (F := Ideal) (m ((c.tc : Thread nD τ).loc main_arg1)) (m ((c.tc : Thread nD τ).loc main_arg3)) := by
  dsimp only [gdst, Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  unfold Cert.ReferenceIdeal.ReadP.val_main_v3 Cert.ReferenceIdeal.ReadP.val_main_call1_v13 Cert.ReferenceIdeal.ReadP.val_main_call1_v12 Cert.ReferenceIdeal.ReadP.val_main_call1_v14 Cert.ReferenceIdeal.ReadP.val_main_call1_cst Cert.ReferenceIdeal.ReadP.val_main_call1_v11 Cert.ReferenceIdeal.ReadP.val_main_call1_c_3 Cert.ReferenceIdeal.ReadP.val_main_call1_v10 Cert.ReferenceIdeal.ReadP.val_main_call1_v9 Cert.ReferenceIdeal.ReadP.val_main_call1_v8 Cert.ReferenceIdeal.ReadP.val_main_call1_v7 Cert.ReferenceIdeal.ReadP.val_main_call1_v6 Cert.ReferenceIdeal.ReadP.val_main_call1_v5 Cert.ReferenceIdeal.ReadP.val_main_call1_c_2 Cert.ReferenceIdeal.ReadP.val_main_call1_c_1 Cert.ReferenceIdeal.ReadP.val_main_call1_v4 Cert.ReferenceIdeal.ReadP.val_main_call1_v3 Cert.ReferenceIdeal.ReadP.val_main_call1_v2 Cert.ReferenceIdeal.ReadP.val_main_call1_c_0 Cert.ReferenceIdeal.ReadP.val_main_call1_v1 Cert.ReferenceIdeal.ReadP.val_main_call1_v0 Cert.ReferenceIdeal.ReadP.val_main_call1_c Cert.ReferenceIdeal.ReadP.val_main_v2
  rfl

end Cert.KernelIdeal.KValue

end
-- ==== Proof.lean ====
/- The proof of `Cert.Claim`: a tiled kernel for the chamfer loss of 16 pairs of point clouds equals its reference over
   the extended reals.

   Both programs gather 4096 points for each cloud by the same operations; the specification (Proof/Chamfer.lean) is the
   loss as ONE function of the gathered arrays:  for clouds p, q,
     dist p q s t = max (‖p s‖² + ‖q t‖² − 2 ⟨p s, q t⟩, 0),   batchLoss p q = (Σ_j (min_s dist p q s j + min_t dist p q j t)) / 4096,
     loss = ((Σ_b batchLoss (P b) (Q b)) / 16) · 1.
   The reference computes exactly this, operation by operation (Proof/RefValue.lean).  The kernel never forms the
   4096 × 4096 matrix: per pair it visits sixteen 1024 × 1024 tiles, folding row minima into four columns and column
   minima into a scratch row, both started from a large constant that the idealization names +∞ (`preserves`: the five
   sites of that one name); a minimum over 4096 positions is the running minimum of its four block minima, and the sum
   over j of the two minima is the block sums of the row minima plus the sum of the column minima
   (Proof/BlockOps, BlockBody, BlockScratch, BlockRun, BlockValue; the laws are commutativity and associativity of min and
   + only, so finiteness of the inputs is never used).  From the per-pair value to the program's result: Proof/KernelValue.lean.
   The three frames are the generated frame certificates (for the reference: its run with the result dropped). -/
import proofs.«158294_j79070347920144_2_alg».proof.Defs
import proofs.«158294_j79070347920144_2_alg».proof.Proof.Gen.Kernel
import proofs.«158294_j79070347920144_2_alg».proof.Proof.Gen.Kernel.Frame
import proofs.«158294_j79070347920144_2_alg».proof.Proof.Gen.KernelIdeal
import proofs.«158294_j79070347920144_2_alg».proof.Proof.Gen.KernelIdeal.Frame
import proofs.«158294_j79070347920144_2_alg».proof.Proof.Gen.ReferenceIdeal
import proofs.«158294_j79070347920144_2_alg».proof.Proof.Gen.Pre_finite_inputs
import proofs.«158294_j79070347920144_2_alg».proof.Proof.RefRunPatched
import proofs.«158294_j79070347920144_2_alg».proof.Proof.RefReadPatched
import proofs.«158294_j79070347920144_2_alg».proof.Proof.RefValue
import proofs.«158294_j79070347920144_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The one named constant, at its five sites: the table gives it +∞, and so does the printed constant at `Ideal`. -/
theorem preserves : Cert.preserves_Kernel_KernelIdeal :=
  have s := IdealRules.named_const.statement Cert.KernelIdeal.κ "pos_big" .f32 0x7F61B1E6#32 ⊤ rfl
  ⟨s, s, s, s, s⟩

/-- Both programs end at the loss of the same two gathered arrays. -/
theorem algebraic : Cert.algebraic_KernelIdeal_ReferenceIdeal := by
  intro m ρ m' ρ' _ hagree
  refine ⟨fun c => fun _ => Cert.Chamfer.loss (Cert.Chamfer.cloud (Cert.KernelIdeal.KValue.gsrc m c))
      (Cert.Chamfer.cloud (Cert.KernelIdeal.KValue.gdst m c)), Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v27_eq]
  funext i
  rw [Cert.ReferenceIdeal.RefValue.result_eq, (hagree c).1, (hagree c).2.1, (hagree c).2.2.1, (hagree c).2.2.2,
    ← Cert.KernelIdeal.KValue.gsrc_eq, ← Cert.KernelIdeal.KValue.gdst_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
